-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_v23) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2048 : Shape := ⟨2, ![2048, 2048]⟩
abbrev S64x32x2048 : Shape := ⟨3, ![64, 32, 2048]⟩
abbrev S64x2048x32 : Shape := ⟨3, ![64, 2048, 32]⟩
abbrev S64x2048 : Shape := ⟨2, ![64, 2048]⟩
abbrev S64 : Shape := ⟨1, ![64]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S64x32x2048 : S_.BroadcastsInDim S64x32x2048 (![] : Fin 0 → Fin S64x32x2048.rank)
  reducesTo_S64x32x2048_S_d0_1_2 : S64x32x2048.ReducesTo [0, 1, 2] S_
  bcast_S_S64x2048x32 : S_.BroadcastsInDim S64x2048x32 (![] : Fin 0 → Fin S64x2048x32.rank)
  reducesTo_S64x2048x32_S_d0_1_2 : S64x2048x32.ReducesTo [0, 1, 2] S_
  bcast_S_S64x2048 : S_.BroadcastsInDim S64x2048 (![] : Fin 0 → Fin S64x2048.rank)
  reducesTo_S64x2048_S_d0_1 : S64x2048.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S64x2048 1) : IVec S_ 1 :=
  let main_c_5 : IVec S_ 1 := constantI S_ 1 1#1
  let main_v17 : IVec S_ 1 := (fun x v => Host.reduce IntOp.andi x v reducesTo_S64x2048_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S2048x2048 .f32) (main_arg1 : FVec F S64x32x2048 .f32) (main_arg2 : FVec F S64x2048x32 .f32) (main_arg3 : FVec F S64x2048 .f32) (main_arg4 : FVec F S64 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S64x32x2048 .f32 := Host.absf main_arg1
  let main_cst_0 : FVec F S_ .f32 := constant S_ .f32 0x7F800000#32
  let main_v5 : FVec F S64x32x2048 .f32 := broadcastInDim S64x32x2048 ![] bcast_S_S64x32x2048 main_cst_0
  let main_v6 : IVec S64x32x2048 1 := cmpf .olt main_v4 main_v5
  let main_c_1 : IVec S_ 1 := constantI S_ 1 1#1
  let main_v7 : IVec S_ 1 := (fun x v => Host.reduce IntOp.andi x v reducesTo_S64x32x2048_S_d0_1_2 h_S_) main_v6 main_c_1
  let main_v8 : IVec S_ 1 := andi main_v3 main_v7
  let main_v9 : FVec F S64x2048x32 .f32 := Host.absf main_arg2
  let main_cst_2 : FVec F S_ .f32 := constant S_ .f32 0x7F800000#32
  let main_v10 : FVec F S64x2048x32 .f32 := broadcastInDim S64x2048x32 ![] bcast_S_S64x2048x32 main_cst_2
  let main_v11 : IVec S64x2048x32 1 := cmpf .olt main_v9 main_v10
  let main_c_3 : IVec S_ 1 := constantI S_ 1 1#1
  let main_v12 : IVec S_ 1 := (fun x v => Host.reduce IntOp.andi x v reducesTo_S64x2048x32_S_d0_1_2 h_S_) main_v11 main_c_3
  let main_v13 : IVec S_ 1 := andi main_v8 main_v12
  let main_v14 : FVec F S64x2048 .f32 := Host.absf main_arg3
  let main_cst_4 : FVec F S_ .f32 := constant S_ .f32 0x7F800000#32
  let main_v15 : FVec F S64x2048 .f32 := broadcastInDim S64x2048 ![] bcast_S_S64x2048 main_cst_4
  let main_v16 : IVec S64x2048 1 := cmpf .olt main_v14 main_v15
  fn_part1 (F := F) main_arg4 main_v13 main_v16
-- ==== Kernel.lean ====
abbrev S2048x2048 : Shape := ⟨2, ![2048, 2048]⟩
abbrev S64x32x2048 : Shape := ⟨3, ![64, 32, 2048]⟩
abbrev S64x2048x32 : Shape := ⟨3, ![64, 2048, 32]⟩
abbrev S64x2048 : Shape := ⟨2, ![64, 2048]⟩
abbrev S64 : Shape := ⟨1, ![64]⟩
abbrev S2048x64 : Shape := ⟨2, ![2048, 64]⟩
abbrev S1x64 : Shape := ⟨2, ![1, 64]⟩
abbrev S64x64 : Shape := ⟨2, ![64, 64]⟩
abbrev S_ : Shape := ⟨0, ![]⟩
abbrev S1x32 : Shape := ⟨2, ![1, 32]⟩
abbrev S64x1x64x1 : Shape := ⟨4, ![64, 1, 64, 1]⟩
abbrev S1x1x1x32 : Shape := ⟨4, ![1, 1, 1, 32]⟩
abbrev S64x1x64x32 : Shape := ⟨4, ![64, 1, 64, 32]⟩
abbrev S64x65536 : Shape := ⟨2, ![64, 65536]⟩
abbrev S256x2048 : Shape := ⟨2, ![256, 2048]⟩
abbrev S256x64 : Shape := ⟨2, ![256, 64]⟩

abbrev nBuf : Space → Nat
  | .hbm => 44
  | .vmem => 11
  | .smem => 0
  | _ => 0

abbrev bufTy : (tb : Table) → Fin (tcTables nBuf tb) → BufTy
  | .hbm, ⟨0, _⟩ => ⟨S2048x2048, .f32⟩
  | .hbm, ⟨1, _⟩ => ⟨S64x32x2048, .f32⟩
  | .hbm, ⟨2, _⟩ => ⟨S64x2048x32, .f32⟩
  | .hbm, ⟨3, _⟩ => ⟨S64x2048, .f32⟩
  | .hbm, ⟨4, _⟩ => ⟨S64, .f32⟩
  | .hbm, ⟨5, _⟩ => ⟨S2048x2048, .f32⟩
  | .hbm, ⟨6, _⟩ => ⟨S64x32x2048, .f32⟩
  | .hbm, ⟨7, _⟩ => ⟨S2048x2048, .f32⟩
  | .hbm, ⟨8, _⟩ => ⟨S2048x64, .f32⟩
  | .hbm, ⟨9, _⟩ => ⟨S1x64, .f32⟩
  | .hbm, ⟨10, _⟩ => ⟨S64x64, .i32⟩
  | .hbm, ⟨11, _⟩ => ⟨S64x64, .i32⟩
  | .hbm, ⟨12, _⟩ => ⟨S_, .i32⟩
  | .hbm, ⟨13, _⟩ => ⟨S64x64, .i32⟩
  | .hbm, ⟨14, _⟩ => ⟨S64x64, .i32⟩
  | .hbm, ⟨15, _⟩ => ⟨S64x64, .i1⟩
  | .hbm, ⟨16, _⟩ => ⟨S64x64, .f32⟩
  | .hbm, ⟨17, _⟩ => ⟨S_, .f32⟩
  | .hbm, ⟨18, _⟩ => ⟨S1x32, .f32⟩
  | .hbm, ⟨19, _⟩ => ⟨S64x1x64x1, .f32⟩
  | .hbm, ⟨20, _⟩ => ⟨S1x1x1x32, .f32⟩
  | .hbm, ⟨21, _⟩ => ⟨S64x1x64x32, .f32⟩
  | .hbm, ⟨22, _⟩ => ⟨S64x1x64x32, .f32⟩
  | .hbm, ⟨23, _⟩ => ⟨S64x1x64x32, .f32⟩
  | .hbm, ⟨24, _⟩ => ⟨S64x2048, .f32⟩
  | .hbm, ⟨25, _⟩ => ⟨S2048x2048, .bf16⟩
  | .hbm, ⟨26, _⟩ => ⟨S2048x2048, .bf16⟩
  | .hbm, ⟨27, _⟩ => ⟨S64x2048, .bf16⟩
  | .hbm, ⟨28, _⟩ => ⟨S64x65536, .f32⟩
  | .hbm, ⟨29, _⟩ => ⟨S64x65536, .f32⟩
  | .hbm, ⟨30, _⟩ => ⟨S_, .f32⟩
  | .hbm, ⟨31, _⟩ => ⟨S64, .f32⟩
  | .hbm, ⟨32, _⟩ => ⟨S64, .f32⟩
  | .hbm, ⟨33, _⟩ => ⟨S64x65536, .f32⟩
  | .hbm, ⟨34, _⟩ => ⟨S64x65536, .f32⟩
  | .hbm, ⟨35, _⟩ => ⟨S_, .f32⟩
  | .hbm, ⟨36, _⟩ => ⟨S64, .f32⟩
  | .hbm, ⟨37, _⟩ => ⟨S64, .f32⟩
  | .hbm, ⟨38, _⟩ => ⟨S64, .f32⟩
  | .hbm, ⟨39, _⟩ => ⟨S_, .f32⟩
  | .hbm, ⟨40, _⟩ => ⟨S64, .f32⟩
  | .hbm, ⟨41, _⟩ => ⟨S64, .f32⟩
  | .hbm, ⟨42, _⟩ => ⟨S2048x2048, .f32⟩
  | .hbm, ⟨43, _⟩ => ⟨S2048x64, .f32⟩
  | .local _ .vmem, ⟨0, _⟩ => ⟨S256x2048, .f32⟩
  | .local _ .vmem, ⟨1, _⟩ => ⟨S256x2048, .f32⟩
  | .local _ .vmem, ⟨2, _⟩ => ⟨S2048x2048, .bf16⟩
  | .local _ .vmem, ⟨3, _⟩ => ⟨S2048x2048, .bf16⟩
  | .local _ .vmem, ⟨4, _⟩ => ⟨S2048x64, .f32⟩
  | .local _ .vmem, ⟨5, _⟩ => ⟨S1x64, .f32⟩
  | .local _ .vmem, ⟨6, _⟩ => ⟨S64x2048, .bf16⟩
  | .local _ .vmem, ⟨7, _⟩ => ⟨S256x2048, .f32⟩
  | .local _ .vmem, ⟨8, _⟩ => ⟨S256x2048, .f32⟩
  | .local _ .vmem, ⟨9, _⟩ => ⟨S256x64, .f32⟩
  | .local _ .vmem, ⟨10, _⟩ => ⟨S256x64, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_call0_v0 : Ref sig .tc := ⟨.hbm, 5, rfl⟩
abbrev main_call0_call0_v1 : Ref sig .tc := ⟨.hbm, 6, rfl⟩
abbrev main_call0_call0_v2 : Ref sig .tc := ⟨.hbm, 7, rfl⟩
abbrev main_call0_v0_2 : Ref sig .tc := ⟨.hbm, 8, rfl⟩
abbrev main_call0_v0_3 : Ref sig .tc := ⟨.hbm, 9, rfl⟩
abbrev main_call0_call0_v5 : Ref sig .tc := ⟨.hbm, 10, rfl⟩
abbrev main_call0_call0_v6 : Ref sig .tc := ⟨.hbm, 11, rfl⟩
abbrev main_call0_call0_c : Ref sig .tc := ⟨.hbm, 12, rfl⟩
abbrev main_call0_call0_v7 : Ref sig .tc := ⟨.hbm, 13, rfl⟩
abbrev main_call0_call0_v8 : Ref sig .tc := ⟨.hbm, 14, rfl⟩
abbrev main_call0_call0_v9 : Ref sig .tc := ⟨.hbm, 15, rfl⟩
abbrev main_call0_call0_v10 : Ref sig .tc := ⟨.hbm, 16, rfl⟩
abbrev main_call0_call0_cst : Ref sig .tc := ⟨.hbm, 17, rfl⟩
abbrev main_call0_call0_v11 : Ref sig .tc := ⟨.hbm, 18, rfl⟩
abbrev main_call0_call0_call0_v0 : Ref sig .tc := ⟨.hbm, 19, rfl⟩
abbrev main_call0_call0_call0_v1 : Ref sig .tc := ⟨.hbm, 20, rfl⟩
abbrev main_call0_call0_call0_v2 : Ref sig .tc := ⟨.hbm, 21, rfl⟩
abbrev main_call0_call0_call0_v3 : Ref sig .tc := ⟨.hbm, 22, rfl⟩
abbrev main_call0_call0_call0_v4 : Ref sig .tc := ⟨.hbm, 23, rfl⟩
abbrev main_call0_call0_v12 : Ref sig .tc := ⟨.hbm, 24, rfl⟩
abbrev main_call0_v0_0 : Ref sig .tc := ⟨.hbm, 25, rfl⟩
abbrev main_call0_v0_1 : Ref sig .tc := ⟨.hbm, 26, rfl⟩
abbrev main_call0_v0_4 : Ref sig .tc := ⟨.hbm, 27, rfl⟩
abbrev main_call0_call0_v16 : Ref sig .tc := ⟨.hbm, 28, rfl⟩
abbrev main_call0_call0_call1_v0 : Ref sig .tc := ⟨.hbm, 29, rfl⟩
abbrev main_call0_call0_call1_cst : Ref sig .tc := ⟨.hbm, 30, rfl⟩
abbrev main_call0_call0_call1_v1 : Ref sig .tc := ⟨.hbm, 31, rfl⟩
abbrev main_call0_call0_v17 : Ref sig .tc := ⟨.hbm, 32, rfl⟩
abbrev main_call0_call0_v18 : Ref sig .tc := ⟨.hbm, 33, rfl⟩
abbrev main_call0_call0_call2_v0 : Ref sig .tc := ⟨.hbm, 34, rfl⟩
abbrev main_call0_call0_call2_cst : Ref sig .tc := ⟨.hbm, 35, rfl⟩
abbrev main_call0_call0_call2_v1 : Ref sig .tc := ⟨.hbm, 36, rfl⟩
abbrev main_call0_call0_v19 : Ref sig .tc := ⟨.hbm, 37, rfl⟩
abbrev main_call0_call0_v20 : Ref sig .tc := ⟨.hbm, 38, rfl⟩
abbrev main_call0_call0_cst_0 : Ref sig .tc := ⟨.hbm, 39, rfl⟩
abbrev main_call0_call0_v21 : Ref sig .tc := ⟨.hbm, 40, rfl⟩
abbrev main_v0_2 : Ref sig .tc := ⟨.hbm, 41, rfl⟩
abbrev main_v0_0 : Ref sig .tc := ⟨.hbm, 42, rfl⟩
abbrev main_v0_1 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S64x32x2048_S2048x2048 : S64x32x2048.ShapeCasts S2048x2048
  transposes_S64x2048x32_S64x32x2048_0_2_1 : S64x2048x32.Transposes [0, 2, 1] S64x32x2048
  transposes_S64x2048_S2048x64_1_0 : S64x2048.Transposes [1, 0] S2048x64
  shapeCasts_S64_S1x64 : S64.ShapeCasts S1x64
  bcast_S_S64x64 : S_.BroadcastsInDim S64x64 (![] : Fin 0 → Fin S64x64.rank)
  bcast_S_S1x32 : S_.BroadcastsInDim S1x32 (![] : Fin 0 → Fin S1x32.rank)
  bcast_S64x64_S64x1x64x1_0_2 : S64x64.BroadcastsInDim S64x1x64x1 (![0, 2] : Fin 2 → Fin S64x1x64x1.rank)
  bcast_S1x32_S1x1x1x32_1_3 : S1x32.BroadcastsInDim S1x1x1x32 (![1, 3] : Fin 2 → Fin S1x1x1x32.rank)
  bcast_S64x1x64x1_S64x1x64x32_0_1_2_3 : S64x1x64x1.BroadcastsInDim S64x1x64x32 (![0, 1, 2, 3] : Fin 4 → Fin S64x1x64x32.rank)
  bcast_S1x1x1x32_S64x1x64x32_0_1_2_3 : S1x1x1x32.BroadcastsInDim S64x1x64x32 (![0, 1, 2, 3] : Fin 4 → Fin S64x1x64x32.rank)
  shapeCasts_S64x1x64x32_S64x2048 : S64x1x64x32.ShapeCasts S64x2048
  bitsLt_bf16_f32 : FTy.bits .bf16 < FTy.bits .f32
  shapeCasts_S64x2048x32_S64x65536 : S64x2048x32.ShapeCasts S64x65536
  reducesTo_S64x65536_S64_d1 : S64x65536.ReducesTo [1] S64
  h_S_ : 0 < S_.numel
  shapeCasts_S64x32x2048_S64x65536 : S64x32x2048.ShapeCasts S64x65536
  bcast_S_S64 : S_.BroadcastsInDim S64 (![] : Fin 0 → Fin S64.rank)
  inb_S256x2048_S256x2048_0_0 : ∀ a, (![0, 0] : Fin 2 → Nat) a + S256x2048.size a ≤ S256x2048.size a
  h_S256x2048 : 0 < S256x2048.numel
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S256x64 : S1x64.Broadcasts S256x64
  natLt_1_32 : 1 < 32
  inb_S256x64_S256x64_0_0 : ∀ a, (![0, 0] : Fin 2 → Nat) a + S256x64.size a ≤ S256x64.size a
  h_S256x64 : 0 < S256x64.numel
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  dot_S256x2048_S2048x64_S256x64_1_0_0_1_n_n_wf : DotDims.WF S256x2048 S2048x64 S256x64 [1] [0] [0] [1] [] []
  dot_S256x64_S64x2048_S256x2048_1_0_0_1_n_n_wf : DotDims.WF S256x64 S64x2048 S256x2048 [1] [0] [0] [1] [] []
  dot_S256x2048_S2048x2048_S256x2048_1_1_0_0_n_n_wf : DotDims.WF S256x2048 S2048x2048 S256x2048 [1] [1] [0] [0] [] []
  dot_S256x2048_S2048x2048_S256x2048_1_0_0_1_n_n_wf : DotDims.WF S256x2048 S2048x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S2048x2048.size a
  hwx0_0 : ∀ i : grid0.Coords, EltTy.bits .f32 = 32 ∨ (Rect.block (s := S2048x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S2048x2048.size a
  hwx0_2 : ∀ i : grid0.Coords, EltTy.bits .bf16 = 32 ∨ (Rect.block (s := S2048x2048) S2048x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x64.size a ≤ S2048x64.size a
  hwx0_3 : ∀ i : grid0.Coords, EltTy.bits .f32 = 32 ∨ (Rect.block (s := S2048x64) S2048x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x2048.size a ≤ S64x2048.size a
  hwx0_5 : ∀ i : grid0.Coords, EltTy.bits .bf16 = 32 ∨ (Rect.block (s := S64x2048) S64x2048.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x2048.size a ≤ S2048x2048.size a
  hwx0_6 : ∀ i : grid0.Coords, EltTy.bits .f32 = 32 ∨ (Rect.block (s := S2048x2048) S256x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x64.size a ≤ S2048x64.size a
  hwx0_7 : ∀ i : grid0.Coords, EltTy.bits .f32 = 32 ∨ (Rect.block (s := S2048x64) S256x64.size (cc0_transform_7 i) (hinb0_7 i)).WholeWords (EltTy.packing .f32)

variable [Facts₀]

def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf
def dot_S256x64_S64x2048_S256x2048_1_0_0_1_n_n : DotDims S256x64 S64x2048 S256x2048 where
  lhsContracting := [1]
  rhsContracting := [0]
  lhsNonContracting := [0]
  rhsNonContracting := [1]
  lhsBatch := []
  rhsBatch := []
  wf := dot_S256x64_S64x2048_S256x2048_1_0_0_1_n_n_wf
def dot_S256x2048_S2048x2048_S256x2048_1_1_0_0_n_n : DotDims S256x2048 S2048x2048 S256x2048 where
  lhsContracting := [1]
  rhsContracting := [1]
  lhsNonContracting := [0]
  rhsNonContracting := [0]
  lhsBatch := []
  rhsBatch := []
  wf := dot_S256x2048_S2048x2048_S256x2048_1_1_0_0_n_n_wf
def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0_0) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0_1) S2048x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0_2) S2048x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v0_3) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v0_4) S64x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0_0) S256x2048.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_1) S256x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2048x2048 : Shape := ⟨2, ![2048, 2048]⟩
abbrev S64x32x2048 : Shape := ⟨3, ![64, 32, 2048]⟩
abbrev S64x2048x32 : Shape := ⟨3, ![64, 2048, 32]⟩
abbrev S64x2048 : Shape := ⟨2, ![64, 2048]⟩
abbrev S64 : Shape := ⟨1, ![64]⟩
abbrev S2048x64 : Shape := ⟨2, ![2048, 64]⟩
abbrev S1x64 : Shape := ⟨2, ![1, 64]⟩
abbrev S_ : Shape := ⟨0, ![]⟩
abbrev S2048x64x32 : Shape := ⟨3, ![2048, 64, 32]⟩
abbrev S64x2048x2048 : Shape := ⟨3, ![64, 2048, 2048]⟩
abbrev S64x2048x1 : Shape := ⟨3, ![64, 2048, 1]⟩
abbrev S64x65536 : Shape := ⟨2, ![64, 65536]⟩

abbrev nBuf : Space → Nat
  | .hbm => 38
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S64x32x2048, .f32⟩
  | .hbm, ⟨2, _⟩ => ⟨S64x2048x32, .f32⟩
  | .hbm, ⟨3, _⟩ => ⟨S64x2048, .f32⟩
  | .hbm, ⟨4, _⟩ => ⟨S64, .f32⟩
  | .hbm, ⟨5, _⟩ => ⟨S2048x64, .f32⟩
  | .hbm, ⟨6, _⟩ => ⟨S2048x64, .f32⟩
  | .hbm, ⟨7, _⟩ => ⟨S1x64, .f32⟩
  | .hbm, ⟨8, _⟩ => ⟨S2048x64, .f32⟩
  | .hbm, ⟨9, _⟩ => ⟨S2048x64, .f32⟩
  | .hbm, ⟨10, _⟩ => ⟨S_, .f32⟩
  | .hbm, ⟨11, _⟩ => ⟨S2048x64, .f32⟩
  | .hbm, ⟨12, _⟩ => ⟨S2048x64, .i1⟩
  | .hbm, ⟨13, _⟩ => ⟨S2048x64, .f32⟩
  | .hbm, ⟨14, _⟩ => ⟨S2048x64, .f32⟩
  | .hbm, ⟨15, _⟩ => ⟨S2048x64x32, .f32⟩
  | .hbm, ⟨16, _⟩ => ⟨S64x2048x32, .f32⟩
  | .hbm, ⟨17, _⟩ => ⟨S64x2048x2048, .f32⟩
  | .hbm, ⟨18, _⟩ => ⟨S64x2048, .f32⟩
  | .hbm, ⟨19, _⟩ => ⟨S64x2048x1, .f32⟩
  | .hbm, ⟨20, _⟩ => ⟨S64x2048x2048, .f32⟩
  | .hbm, ⟨21, _⟩ => ⟨S64x2048x2048, .f32⟩
  | .hbm, ⟨22, _⟩ => ⟨S_, .f32⟩
  | .hbm, ⟨23, _⟩ => ⟨S2048x2048, .f32⟩
  | .hbm, ⟨24, _⟩ => ⟨S64x65536, .f32⟩
  | .hbm, ⟨25, _⟩ => ⟨S64x65536, .f32⟩
  | .hbm, ⟨26, _⟩ => ⟨S_, .f32⟩
  | .hbm, ⟨27, _⟩ => ⟨S64, .f32⟩
  | .hbm, ⟨28, _⟩ => ⟨S64, .f32⟩
  | .hbm, ⟨29, _⟩ => ⟨S64x65536, .f32⟩
  | .hbm, ⟨30, _⟩ => ⟨S64x65536, .f32⟩
  | .hbm, ⟨31, _⟩ => ⟨S_, .f32⟩
  | .hbm, ⟨32, _⟩ => ⟨S64, .f32⟩
  | .hbm, ⟨33, _⟩ => ⟨S64, .f32⟩
  | .hbm, ⟨34, _⟩ => ⟨S64, .f32⟩
  | .hbm, ⟨35, _⟩ => ⟨S_, .f32⟩
  | .hbm, ⟨36, _⟩ => ⟨S64, .f32⟩
  | .hbm, ⟨37, _⟩ => ⟨S64, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_call0_v0 : Ref sig .tc := ⟨.hbm, 25, rfl⟩
abbrev main_call0_cst : Ref sig .tc := ⟨.hbm, 26, rfl⟩
abbrev main_call0_v1 : Ref sig .tc := ⟨.hbm, 27, rfl⟩
abbrev main_v18 : Ref sig .tc := ⟨.hbm, 28, rfl⟩
abbrev main_v19 : Ref sig .tc := ⟨.hbm, 29, rfl⟩
abbrev main_call1_v0 : Ref sig .tc := ⟨.hbm, 30, rfl⟩
abbrev main_call1_cst : Ref sig .tc := ⟨.hbm, 31, rfl⟩
abbrev main_call1_v1 : Ref sig .tc := ⟨.hbm, 32, rfl⟩
abbrev main_v20 : Ref sig .tc := ⟨.hbm, 33, rfl⟩
abbrev main_v21 : Ref sig .tc := ⟨.hbm, 34, rfl⟩
abbrev main_cst_1 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]

class Facts₀ : Prop where
  transposes_S64x2048_S2048x64_1_0 : S64x2048.Transposes [1, 0] S2048x64
  bcast_S64_S1x64_1 : S64.BroadcastsInDim S1x64 (![1] : Fin 1 → Fin S1x64.rank)
  bcast_S1x64_S2048x64_0_1 : S1x64.BroadcastsInDim S2048x64 (![0, 1] : Fin 2 → Fin S2048x64.rank)
  bcast_S_S2048x64 : S_.BroadcastsInDim S2048x64 (![] : Fin 0 → Fin S2048x64.rank)
  transposes_S2048x64x32_S64x2048x32_1_0_2 : S2048x64x32.Transposes [1, 0, 2] S64x2048x32
  transposes_S2048x64_S64x2048_1_0 : S2048x64.Transposes [1, 0] S64x2048
  bcast_S64x2048_S64x2048x1_0_1 : S64x2048.BroadcastsInDim S64x2048x1 (![0, 1] : Fin 2 → Fin S64x2048x1.rank)
  bcast_S64x2048x1_S64x2048x2048_0_1_2 : S64x2048x1.BroadcastsInDim S64x2048x2048 (![0, 1, 2] : Fin 3 → Fin S64x2048x2048.rank)
  reducesTo_S64x2048x2048_S2048x2048_d0 : S64x2048x2048.ReducesTo [0] S2048x2048
  h_S_ : 0 < S_.numel
  shapeCasts_S64x2048x32_S64x65536 : S64x2048x32.ShapeCasts S64x65536
  reducesTo_S64x65536_S64_d1 : S64x65536.ReducesTo [1] S64
  shapeCasts_S64x32x2048_S64x65536 : S64x32x2048.ShapeCasts S64x65536
  bcast_S_S64 : S_.BroadcastsInDim S64 (![] : Fin 0 → Fin S64.rank)
  dot_S2048x2048_S2048x64_S2048x64_1_0_0_1_n_n_wf : DotDims.WF S2048x2048 S2048x64 S2048x64 [1] [0] [0] [1] [] []
  dot_S2048x2048_S64x32x2048_S2048x64x32_1_2_0_01_n_n_wf : DotDims.WF S2048x2048 S64x32x2048 S2048x64x32 [1] [2] [0] [0, 1] [] []
  dot_S64x2048x32_S64x2048x32_S64x2048x2048_2_2_1_1_0_0_wf : DotDims.WF S64x2048x32 S64x2048x32 S64x2048x2048 [2] [2] [1] [1] [0] [0]

variable [Facts₀]

def dot_S2048x2048_S2048x64_S2048x64_1_0_0_1_n_n : DotDims S2048x2048 S2048x64 S2048x64 where
  lhsContracting := [1]
  rhsContracting := [0]
  lhsNonContracting := [0]
  rhsNonContracting := [1]
  lhsBatch := []
  rhsBatch := []
  wf := dot_S2048x2048_S2048x64_S2048x64_1_0_0_1_n_n_wf
def dot_S2048x2048_S64x32x2048_S2048x64x32_1_2_0_01_n_n : DotDims S2048x2048 S64x32x2048 S2048x64x32 where
  lhsContracting := [1]
  rhsContracting := [2]
  lhsNonContracting := [0]
  rhsNonContracting := [0, 1]
  lhsBatch := []
  rhsBatch := []
  wf := dot_S2048x2048_S64x32x2048_S2048x64x32_1_2_0_01_n_n_wf
def dot_S64x2048x32_S64x2048x32_S64x2048x2048_2_2_1_1_0_0 : DotDims S64x2048x32 S64x2048x32 S64x2048x2048 where
  lhsContracting := [2]
  rhsContracting := [2]
  lhsNonContracting := [1]
  rhsNonContracting := [1]
  lhsBatch := [0]
  rhsBatch := [0]
  wf := dot_S64x2048x32_S64x2048x32_S64x2048x2048_2_2_1_1_0_0_wf

class Facts : Prop extends Facts₀ where

variable [Facts]
-- ==== Proof.LibMatmul.lean ====
/-
  A matrix product of two rank-2 arrays read at coordinates. For dimension numbers that contract the left operand's
  second axis against the right operand's first, keep the left rows and the right columns and have no batch axis,
  the entry (p, q) of the product is the sum over the contracted position j of lhs (p, j) · rhs (j, q): the left
  operand is read along row p, the right operand along column q. Both the matrix unit's product into a zero
  accumulator and the host's dot product are that sum on the extended reals.
-/
import Idealize.ShloMosaic.Lib.ValueIdx
import Idealize.ShloMosaic.PureOps.Ideal.Laws

open scoped BigOperators

namespace Idealize.ShloMosaic.ValueIdx

open Idealize.ShloMosaic

section RowsByColumns

variable {a k b : ℕ} (d : DotDims ⟨2, ![a, k]⟩ ⟨2, ![k, b]⟩ ⟨2, ![a, b]⟩)

/-- One contracted axis. -/
theorem dot_contr_rank (hl : d.lhsContracting = [1]) : d.contr.rank = 1 := by
  rw [d.rank_contr, hl]; rfl

/-- Its extent is the shared inner extent k. -/
theorem dot_contr_size (hl : d.lhsContracting = [1]) :
    d.contr.size ⟨0, by rw [dot_contr_rank d hl]; exact Nat.one_pos⟩ = k := by
  rw [d.size_contr 0 (by rw [hl]; exact Nat.one_pos), List.getElem_of_eq hl]
  rfl

/-- The contraction index is its one coordinate. -/
noncomputable def dotEquiv (hl : d.lhsContracting = [1]) : d.contr.Idx ≃ Fin k :=
  contrEquiv1 d k (dot_contr_rank d hl) (dot_contr_size d hl)

/-- The left operand is read at row p, contracted position j. -/
theorem dot_lhsIdx_ix2 (hl : d.lhsContracting = [1]) (hln : d.lhsNonContracting = [0]) (hlb : d.lhsBatch = [])
    (p : Fin a) (q : Fin b) (j : Fin k) :
    d.lhsIdx (ix2 p q) ((dotEquiv d hl).symm j) = ix2 p j := by
  funext ax
  apply Fin.ext
  match ax with
  | ⟨0, _⟩ =>
    have hnb : (0 : Fin 2) ∉ d.lhsBatch := by rw [hlb]; exact List.not_mem_nil
    have hn : (0 : Fin 2) ∈ d.lhsNonContracting := by rw [hln]; exact List.mem_singleton.mpr rfl
    show (d.lhsIdx (ix2 p q) ((dotEquiv d hl).symm j) (0 : Fin 2)).val = p.val
    unfold DotDims.lhsIdx
    rw [dif_neg hnb, dif_pos hn]
    simp only [Fin.val_cast]
    have key : ∀ (n : ℕ) (hn : n < (⟨2, ![a, b]⟩ : Shape).rank), n = 0 → ((ix2 p q) ⟨n, hn⟩).val = p.val :=
      fun n hn h => by subst h; rfl
    exact key _ _ (by simp [hlb, hln])
  | ⟨1, _⟩ =>
    show (d.lhsIdx (ix2 p q) ((dotEquiv d hl).symm j) (1 : Fin 2)).val = j.val
    rw [d.lhsIdx_val_of_single hl]
    exact contrEquiv1_symm_val d k (dot_contr_rank d hl) (dot_contr_size d hl) j

/-- The right operand is read at contracted position j, column q. -/
theorem dot_rhsIdx_ix2 (hl : d.lhsContracting = [1]) (hr : d.rhsContracting = [0]) (hln : d.lhsNonContracting = [0])
    (hrn : d.rhsNonContracting = [1]) (hlb : d.lhsBatch = []) (hrb : d.rhsBatch = [])
    (p : Fin a) (q : Fin b) (j : Fin k) :
    d.rhsIdx (ix2 p q) ((dotEquiv d hl).symm j) = ix2 j q := by
  funext ax
  apply Fin.ext
  match ax with
  | ⟨0, _⟩ =>
    show (d.rhsIdx (ix2 p q) ((dotEquiv d hl).symm j) (0 : Fin 2)).val = j.val
    rw [d.rhsIdx_val_of_single hr]
    exact contrEquiv1_symm_val d k (dot_contr_rank d hl) (dot_contr_size d hl) j
  | ⟨1, _⟩ =>
    have hnb : (1 : Fin 2) ∉ d.rhsBatch := by rw [hrb]; exact List.not_mem_nil
    have hn : (1 : Fin 2) ∈ d.rhsNonContracting := by rw [hrn]; exact List.mem_singleton.mpr rfl
    show (d.rhsIdx (ix2 p q) ((dotEquiv d hl).symm j) (1 : Fin 2)).val = q.val
    unfold DotDims.rhsIdx
    rw [dif_neg hnb, dif_pos hn]
    simp only [Fin.val_cast]
    have key : ∀ (n : ℕ) (hn : n < (⟨2, ![a, b]⟩ : Shape).rank), n = 1 → ((ix2 p q) ⟨n, hn⟩).val = q.val :=
      fun n hn h => by subst h; rfl
    exact key _ _ (by simp [hlb, hln, hrn])

variable {φ₁ φ₂ : FTy}

/-- The matrix unit's product into the zero accumulator, at (p, q). -/
theorem matmul_zero_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (lhs : FVec Ideal ⟨2, ![a, k]⟩ φ₁) (rhs : FVec Ideal ⟨2, ![k, b]⟩ φ₂)
    (p : Fin a) (q : Fin b) :
    FloatOps.matmul d prec lhs rhs (constant ⟨2, ![a, b]⟩ .f32 0x00000000#32) (ix2 p q)
      = ∑ j : Fin k, lhs (ix2 p j) * rhs (ix2 j q) := by
  rw [Ideal.matmul_constant_zero_apply, ← Equiv.sum_comp (dotEquiv d hl).symm]
  refine Finset.sum_congr rfl fun j _ => ?_
  rw [dot_lhsIdx_ix2 d hl hln hlb p q j, dot_rhsIdx_ix2 d hl hr hln hrn hlb hrb p q j]

/-- The host's dot product, at (p, q). -/
theorem dotGeneral_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![a, k]⟩ φ₁) (rhs : FVec Ideal ⟨2, ![k, b]⟩ φ₂)
    (p : Fin a) (q : Fin b) :
    FloatOps.dotGeneral d prec sched lhs rhs (ix2 p q) = ∑ j : Fin k, lhs (ix2 p j) * rhs (ix2 j q) := by
  rw [Ideal.dotGeneral_apply, ← Equiv.sum_comp (dotEquiv d hl).symm]
  refine Finset.sum_congr rfl fun j _ => ?_
  rw [dot_lhsIdx_ix2 d hl hln hlb p q j, dot_rhsIdx_ix2 d hl hr hln hrn hlb hrb p q j]

end RowsByColumns

end Idealize.ShloMosaic.ValueIdx
-- ==== Proof.LibIdealBits.lean ====
import Idealize.ShloMosaic.PureOps.Ideal
import Idealize.ShloMosaic.PureOps.Ideal.Laws
import Idealize.ShloMosaic.Lib.ValueIdx

/-! # Small general facts at the exact instance

* A scalar float literal, and the integer-to-float conversions, read at the exact instance — each stated for a
  VARIABLE word, so that rewriting with them never makes Lean evaluate a particular float literal (comparing
  `Scalar.ofBits .f32 w` with `Ideal.ofBits .f32 w` by unfolding, at a literal `w`, can run out of memory).
* A comparison bit widened to 32 bits and converted as a SIGNED integer (a kernel's `(cond).astype(float32)`:
  `arith.extui` then `arith.sitofp`) is the bit converted as an UNSIGNED integer (the host's `convert` of an i1):
  both are the number 0 or 1.
* A sum over a rank-1 index set is the sum over its one coordinate. -/

noncomputable section

namespace Cert.LibIdealBits

open Idealize.ShloMosaic Idealize.ShloMosaic.ValueIdx

/-- A scalar literal at the exact instance is the instance's reading of its word. -/
theorem scalar_ofBits (φ : FTy) (b : BitVec φ.bits) : Scalar.ofBits (F := Ideal) φ b = Ideal.ofBits φ b := rfl

/-- A signed integer converted to a float at the exact instance is that integer. -/
theorem sitofp_ideal {w : Nat} (b : BitVec w) : FloatOps.sitofp (F := Ideal) .f32 b = (((b.toInt : ℝ)) : EReal) := rfl

/-- An unsigned integer converted to a float at the exact instance is that number. -/
theorem uitofp_ideal {w : Nat} (b : BitVec w) : FloatOps.uitofp (F := Ideal) .f32 b = (((b.toNat : ℝ)) : EReal) := rfl

/-- A bit widened to 32 bits and read as a signed integer is the bit read as a natural number: both are 0 or 1. -/
theorem bit_signed_eq_unsigned (b : BitVec 1) : (((b.setWidth 32).toInt : ℝ) : EReal) = (((b.toNat : ℝ)) : EReal) := by
  have h : (b.setWidth 32).toInt = (b.toNat : ℤ) := by
    rcases BitVec.eq_zero_or_eq_one b with h | h <;> subst h <;> decide
  rw [h, Int.cast_natCast]

/-- So widening a bit and converting it signed is converting it unsigned. -/
theorem sitofp_extui_bit (b : BitVec 1) :
    FloatOps.sitofp (F := Ideal) .f32 (b.setWidth 32) = FloatOps.uitofp (F := Ideal) .f32 b := by
  rw [sitofp_ideal, uitofp_ideal, bit_signed_eq_unsigned]

/-- A rank-1 index set is its one coordinate's range … -/
def idxEquiv1 {n : Nat} : (⟨1, ![n]⟩ : Shape).Idx ≃ Fin n where
  toFun i := i 0
  invFun k := ix1 k
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ k : Fin n, f (ix1 k) := by
  rw [← Equiv.sum_comp (idxEquiv1 (n := n)).symm f]
  rfl

end Cert.LibIdealBits

end
-- ==== Proof.Payload.lean ====
import proofs.«100150_j55645596287642_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import proofs.«100150_j55645596287642_2_alg».proof.Proof.LibMatmul
import proofs.«100150_j55645596287642_2_alg».proof.Proof.LibIdealBits

/-! # What the kernel body stores, entry by entry

At the exact instance the body's two stored values, read at row `p` of the batch tile and a column, are:

* the gate tile: with `a = (∑ k, x[p,k] · encT[k,q]) − bias[0,q]`, the entry is `a · [a > 0]` — the comparison bit widened
  to 32 bits and converted as a signed integer is the number 0 or 1, the same as the bit converted unsigned;
* the output tile: `∑ k, ((∑ d, x[p,d] · vr[k,d]) · (∑ n, gate[p,n] · E[n,k])) · ucat[k,e]` — three matrix products into
  a zero accumulator (one of them against the transposed right operand) and a pointwise product; the changes of
  float format between them are the identity. -/

noncomputable section

namespace Cert.Bridge.Payload

open Cert.KernelIdeal Cert.KernelIdeal.Gen Idealize.ShloMosaic Idealize.ShloMosaic.ValueIdx Idealize.ShloMosaic.TcCoe

/-- The pre-activation entry of the tile: row `p` of `x` against column `q` of the transposed encoder, minus the bias. -/
def preTile (x0 : Vec Ideal S256x2048 .f32) (x3 : Vec Ideal S2048x64 .f32) (x4 : Vec Ideal S1x64 .f32) (p : Fin 256) (q : Fin 64) : EReal :=
  (∑ k : Fin 2048, x0 (ix2 p k) * x3 (ix2 k q)) - x4 (ix2 (0 : Fin 1) q)

/-- The gate entry of the tile. -/
def gateTile (x0 : Vec Ideal S256x2048 .f32) (x3 : Vec Ideal S2048x64 .f32) (x4 : Vec Ideal S1x64 .f32) (p : Fin 256) (q : Fin 64) : EReal :=
  preTile x0 x3 x4 p q
    * FloatOps.uitofp (F := Ideal) .f32 (FloatOps.cmpf (F := Ideal) .ogt (preTile x0 x3 x4 p q) (Ideal.ofBits .f32 0x00000000#32))

/-- The stored gate tile at `(p, q)`. -/
theorem pay1_apply (x0 : Vec Ideal S256x2048 .f32) (x3 : Vec Ideal S2048x64 .f32) (x4 : Vec Ideal S1x64 .f32) (p : Fin 256) (q : Fin 64) :
    k0_pay1 (F := Ideal) x0 x3 x4 (ix2 p q) = gateTile x0 x3 x4 p q := by
  unfold k0_pay1 gateTile preTile
  simp only [mulf_apply, subf_apply, sitofp_apply, extui_apply, cmpf_apply, broadcast_apply, matmul]
  rw [matmul_zero_ix2 _ rfl rfl rfl rfl rfl rfl, shapeCast_self, shapeCast_self, broadcastTo_1b_ab_apply,
    Cert.LibIdealBits.sitofp_extui_bit]
  rfl

/-- A product that contracts the SECOND axis of both operands (`lhs · rhsᵀ`), into a zero accumulator: entry `(p, k)` is
    the sum over `d` of `lhs[p,d] · rhs[k,d]` — the left operand read along row `p`, the right along row `k`. -/
theorem matmul_rows_rows {φ₁ φ₂ : FTy} (lhs : FVec Ideal S256x2048 φ₁) (rhs : FVec Ideal S2048x2048 φ₂) (p : Fin 256) (k : Fin 2048) :
    FloatOps.matmul dot_S256x2048_S2048x2048_S256x2048_1_1_0_0_n_n none lhs rhs (constant S256x2048 .f32 0x00000000#32) (ix2 p k)
      = ∑ d : Fin 2048, lhs (ix2 p d) * rhs (ix2 k d) := by
  rw [Ideal.matmul_constant_zero_apply, ← Equiv.sum_comp (contrEquiv1 dot_S256x2048_S2048x2048_S256x2048_1_1_0_0_n_n 2048 rfl rfl).symm]
  refine Finset.sum_congr rfl fun d _ => ?_
  have hd := contrEquiv1_symm_val dot_S256x2048_S2048x2048_S256x2048_1_1_0_0_n_n 2048 rfl rfl d
  have el : dot_S256x2048_S2048x2048_S256x2048_1_1_0_0_n_n.lhsIdx (ix2 p k) ((contrEquiv1 dot_S256x2048_S2048x2048_S256x2048_1_1_0_0_n_n 2048 rfl rfl).symm d) = ix2 p d :=
    funext fun a => Fin.ext (by
      match a with
      | ⟨0, _⟩ =>
        show (dot_S256x2048_S2048x2048_S256x2048_1_1_0_0_n_n.lhsIdx (ix2 p k) _ 0).val = p.val
        unfold DotDims.lhsIdx
        rw [dif_neg (show ¬(0 : Fin S256x2048.rank) ∈ dot_S256x2048_S2048x2048_S256x2048_1_1_0_0_n_n.lhsBatch by decide),
          dif_pos (show (0 : Fin S256x2048.rank) ∈ dot_S256x2048_S2048x2048_S256x2048_1_1_0_0_n_n.lhsNonContracting by decide)]
        rfl
      | ⟨1, _⟩ => exact (dot_S256x2048_S2048x2048_S256x2048_1_1_0_0_n_n.lhsIdx_val_of_single rfl _ _).trans hd)
  have er : dot_S256x2048_S2048x2048_S256x2048_1_1_0_0_n_n.rhsIdx (ix2 p k) ((contrEquiv1 dot_S256x2048_S2048x2048_S256x2048_1_1_0_0_n_n 2048 rfl rfl).symm d) = ix2 k d :=
    funext fun a => Fin.ext (by
      match a with
      | ⟨0, _⟩ =>
        show (dot_S256x2048_S2048x2048_S256x2048_1_1_0_0_n_n.rhsIdx (ix2 p k) _ 0).val = k.val
        unfold DotDims.rhsIdx
        rw [dif_neg (show ¬(0 : Fin S2048x2048.rank) ∈ dot_S256x2048_S2048x2048_S256x2048_1_1_0_0_n_n.rhsBatch by decide),
          dif_pos (show (0 : Fin S2048x2048.rank) ∈ dot_S256x2048_S2048x2048_S256x2048_1_1_0_0_n_n.rhsNonContracting by decide)]
        rfl
      | ⟨1, _⟩ => exact (dot_S256x2048_S2048x2048_S256x2048_1_1_0_0_n_n.rhsIdx_val_of_single rfl _ _).trans hd)
  rw [el, er]

/-- The output entry of the tile: one sum over the 2048 stacked positions. -/
def outTile (x0 : Vec Ideal S256x2048 .f32) (x3 : Vec Ideal S2048x64 .f32) (x4 : Vec Ideal S1x64 .f32)
    (x5 : Vec Ideal S64x2048 .bf16) (x1 x2 : Vec Ideal S2048x2048 .bf16) (p : Fin 256) (e : Fin 2048) : EReal :=
  ∑ k : Fin 2048, ((∑ d : Fin 2048, x0 (ix2 p d) * x1 (ix2 k d)) * (∑ n : Fin 64, gateTile x0 x3 x4 p n * x5 (ix2 n k)))
    * x2 (ix2 k e)

/-- The stored output tile at `(p, e)`. -/
theorem pay2_apply (x0 : Vec Ideal S256x2048 .f32) (x3 : Vec Ideal S2048x64 .f32) (x4 : Vec Ideal S1x64 .f32)
    (x5 : Vec Ideal S64x2048 .bf16) (x1 x2 : Vec Ideal S2048x2048 .bf16) (p : Fin 256) (e : Fin 2048) :
    k0_pay2 (F := Ideal) x0 x3 x4 x5 x1 x2 (ix2 p e) = outTile x0 x3 x4 x5 x1 x2 p e := by
  unfold k0_pay2 outTile
  simp only [matmul]
  rw [matmul_zero_ix2 _ rfl rfl rfl rfl rfl rfl]
  refine Finset.sum_congr rfl fun k _ => ?_
  rw [shapeCast_self, truncf_apply, mulf_apply, matmul_rows_rows, matmul_zero_ix2 _ rfl rfl rfl rfl rfl rfl, shapeCast_self,
    shapeCast_self]
  refine congrArg (· * x2 (ix2 k e)) (congrArg₂ (· * ·) (Finset.sum_congr rfl fun d _ => by rw [truncf_apply])
    (Finset.sum_congr rfl fun n _ => by rw [truncf_apply, pay1_apply]))

end Cert.Bridge.Payload

end
-- ==== Proof.Tiles.lean ====
import proofs.«100150_j55645596287642_2_alg».proof.Proof.Gen.KernelIdeal.Value
import proofs.«100150_j55645596287642_2_alg».proof.Proof.Payload

/-! # From batch tiles to whole arrays

The kernel walks the batch in 8 tiles of 256 rows. At tile `t` it reads rows `256·t … 256·t + 255` of `x` and the whole
of every weight array, and writes rows `256·t … 256·t + 255` of both results. A stored entry depends on its own row of
`x` only, so row `b` of either result is ONE function of row `b` of `x` and the weight arrays, whatever tile `b` falls
in: `gateRow` and `outRow` below. What tile `t` writes back is that function read through the tile's rows, and the 8
tiles cover all 2048 rows, so after the run each result array IS that function. -/

noncomputable section

namespace Cert.Bridge.Tiles

open Cert.KernelIdeal Cert.KernelIdeal.Gen Idealize.ShloMosaic Idealize.ShloMosaic.ValueIdx Idealize.ShloMosaic.TcCoe
open Idealize.SL.Sem Cert.Bridge.Payload
open Idealize.ShloMosaic.Pipeline (Dat)

/-! ## The two results, row by row, as functions of the staged arrays -/

/-- The pre-activation of batch row `b` for transform `q`, from `x`, the transposed encoder and the bias row. -/
def preRow (X : S2048x2048.Idx → EReal) (W3 : S2048x64.Idx → EReal) (W4 : S1x64.Idx → EReal) (b : Fin 2048) (q : Fin 64) : EReal :=
  (∑ k : Fin 2048, X (ix2 b k) * W3 (ix2 k q)) - W4 (ix2 (0 : Fin 1) q)

/-- The gate of batch row `b` for transform `q`. -/
def gateRow (X : S2048x2048.Idx → EReal) (W3 : S2048x64.Idx → EReal) (W4 : S1x64.Idx → EReal) (b : Fin 2048) (q : Fin 64) : EReal :=
  preRow X W3 W4 b q
    * FloatOps.uitofp (F := Ideal) .f32 (FloatOps.cmpf (F := Ideal) .ogt (preRow X W3 W4 b q) (Ideal.ofBits .f32 0x00000000#32))

/-- The output of batch row `b` at model coordinate `e`: one sum over the 2048 stacked positions. -/
def outRow (X W1 W2 : S2048x2048.Idx → EReal) (W3 : S2048x64.Idx → EReal) (W4 : S1x64.Idx → EReal) (W5 : S64x2048.Idx → EReal)
    (b e : Fin 2048) : EReal :=
  ∑ k : Fin 2048, ((∑ d : Fin 2048, X (ix2 b d) * W1 (ix2 k d)) * (∑ n : Fin 64, gateRow X W3 W4 b n * W5 (ix2 n k))) * W2 (ix2 k e)

def gateAll (X : S2048x2048.Idx → EReal) (W3 : S2048x64.Idx → EReal) (W4 : S1x64.Idx → EReal) : S2048x64.Idx → EReal :=
  fun i => gateRow X W3 W4 (i 0) (i 1)

def outAll (X W1 W2 : S2048x2048.Idx → EReal) (W3 : S2048x64.Idx → EReal) (W4 : S1x64.Idx → EReal) (W5 : S64x2048.Idx → EReal) :
    S2048x2048.Idx → EReal :=
  fun i => outRow X W1 W2 W3 W4 W5 (i 0) (i 1)

variable (m : (ℓ : Loc nD τ sig) → Buf (Elt Ideal) ℓ)

theorem hz : (![0, 0] : Fin 2 → Nat) = fun _ => 0 := funext fun a => by fin_cases a <;> rfl

/-! ## Where each window's tile sits -/

/-- The printed index maps, decided over the 8 tiles: `x` and the two results move together along the rows, every
    weight array is read whole, and the row-tile number is at most 7. -/
theorem idx_facts : ∀ t : Fin cfg0.N,
    win0_0.index t (0 : Fin 2) = win0_7.index t (0 : Fin 2) ∧ win0_0.index t (1 : Fin 2) = 0
    ∧ win0_6.index t (0 : Fin 2) = win0_7.index t (0 : Fin 2) ∧ win0_6.index t (1 : Fin 2) = 0
    ∧ win0_7.index t (1 : Fin 2) = 0 ∧ win0_7.index t (0 : Fin 2) ≤ 7
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- Every row tile is some grid point's. -/
theorem idx_onto : ∀ q0 : Fin 8, ∃ t : Fin cfg0.N, win0_7.index t (0 : Fin 2) = q0.val :=
  (by decide +kernel : ∀ q0 : Fin 8, ∃ t : Fin grid0.N, win0_7.index t (0 : Fin 2) = q0.val)

/-- The array row of tile `t`'s local row `p`. -/
def rowOf (t : Fin cfg0.N) (p : Fin 256) : Fin 2048 :=
  ⟨win0_7.index t (0 : Fin 2) * 256 + p.val, by have := (idx_facts t).2.2.2.2.2.1; have := p.isLt; omega⟩

/-! ## The tiles of the inputs, read at coordinates -/

theorem read0 (c : Dev nD) (t : Fin cfg0.N) (p : Fin 256) (k : Fin 2048) :
    iblk m c 0 t (ix2 p k) = V m c (Pipeline.arrRef spec0 0) (ix2 (rowOf t p) k) := by
  show V m c (Pipeline.arrRef spec0 0) (((cfg0.win 0).blk t).view.emb (ix2 p k)) = V m c (Pipeline.arrRef spec0 0) (ix2 (rowOf t p) k)
  refine congrArg _ (funext fun a => Fin.ext ?_)
  obtain ⟨e0, e1, -⟩ := idx_facts t
  match a with
  | ⟨0, _⟩ => show win0_0.index t (0 : Fin 2) * 256 + 1 * p.val = win0_7.index t (0 : Fin 2) * 256 + p.val; omega
  | ⟨1, _⟩ => show win0_0.index t (1 : Fin 2) * 2048 + 1 * k.val = k.val; omega

theorem read1 (c : Dev nD) (t : Fin cfg0.N) (k d : Fin 2048) :
    iblk m c 1 t (ix2 k d) = V m c (Pipeline.arrRef spec0 1) (ix2 k d) := by
  show V m c (Pipeline.arrRef spec0 1) (((cfg0.win 1).blk t).view.emb (ix2 k d)) = V m c (Pipeline.arrRef spec0 1) (ix2 k d)
  refine congrArg _ (funext fun a => Fin.ext ?_)
  obtain ⟨-, -, -, -, -, -, e0, e1, -⟩ := idx_facts t
  match a with
  | ⟨0, _⟩ => show win0_1.index t (0 : Fin 2) * 2048 + 1 * k.val = k.val; omega
  | ⟨1, _⟩ => show win0_1.index t (1 : Fin 2) * 2048 + 1 * d.val = d.val; omega

theorem read2 (c : Dev nD) (t : Fin cfg0.N) (k e : Fin 2048) :
    iblk m c 2 t (ix2 k e) = V m c (Pipeline.arrRef spec0 2) (ix2 k e) := by
  show V m c (Pipeline.arrRef spec0 2) (((cfg0.win 2).blk t).view.emb (ix2 k e)) = V m c (Pipeline.arrRef spec0 2) (ix2 k e)
  refine congrArg _ (funext fun a => Fin.ext ?_)
  obtain ⟨-, -, -, -, -, -, -, -, e0, e1, -⟩ := idx_facts t
  match a with
  | ⟨0, _⟩ => show win0_2.index t (0 : Fin 2) * 2048 + 1 * k.val = k.val; omega
  | ⟨1, _⟩ => show win0_2.index t (1 : Fin 2) * 2048 + 1 * e.val = e.val; omega

theorem read3 (c : Dev nD) (t : Fin cfg0.N) (k : Fin 2048) (q : Fin 64) :
    iblk m c 3 t (ix2 k q) = V m c (Pipeline.arrRef spec0 3) (ix2 k q) := by
  show V m c (Pipeline.arrRef spec0 3) (((cfg0.win 3).blk t).view.emb (ix2 k q)) = V m c (Pipeline.arrRef spec0 3) (ix2 k q)
  refine congrArg _ (funext fun a => Fin.ext ?_)
  obtain ⟨-, -, -, -, -, -, -, -, -, -, e0, e1, -⟩ := idx_facts t
  match a with
  | ⟨0, _⟩ => show win0_3.index t (0 : Fin 2) * 2048 + 1 * k.val = k.val; omega
  | ⟨1, _⟩ => show win0_3.index t (1 : Fin 2) * 64 + 1 * q.val = q.val; omega

theorem read4 (c : Dev nD) (t : Fin cfg0.N) (q : Fin 64) :
    iblk m c 4 t (ix2 (0 : Fin 1) q) = V m c (Pipeline.arrRef spec0 4) (ix2 (0 : Fin 1) q) := by
  show V m c (Pipeline.arrRef spec0 4) (((cfg0.win 4).blk t).view.emb (ix2 (0 : Fin 1) q)) = V m c (Pipeline.arrRef spec0 4) (ix2 (0 : Fin 1) q)
  refine congrArg _ (funext fun a => Fin.ext ?_)
  obtain ⟨-, -, -, -, -, -, -, -, -, -, -, -, e0, e1, -⟩ := idx_facts t
  match a with
  | ⟨0, _⟩ => show win0_4.index t (0 : Fin 2) * 1 + 1 * 0 = 0; omega
  | ⟨1, _⟩ => show win0_4.index t (1 : Fin 2) * 64 + 1 * q.val = q.val; omega

theorem read5 (c : Dev nD) (t : Fin cfg0.N) (n : Fin 64) (k : Fin 2048) :
    iblk m c 5 t (ix2 n k) = V m c (Pipeline.arrRef spec0 5) (ix2 n k) := by
  show V m c (Pipeline.arrRef spec0 5) (((cfg0.win 5).blk t).view.emb (ix2 n k)) = V m c (Pipeline.arrRef spec0 5) (ix2 n k)
  refine congrArg _ (funext fun a => Fin.ext ?_)
  obtain ⟨-, -, -, -, -, -, -, -, -, -, -, -, -, -, e0, e1⟩ := idx_facts t
  match a with
  | ⟨0, _⟩ => show win0_5.index t (0 : Fin 2) * 64 + 1 * n.val = n.val; omega
  | ⟨1, _⟩ => show win0_5.index t (1 : Fin 2) * 2048 + 1 * k.val = k.val; omega

/-- The gate tile's entry is the row function at the tile's array row. -/
theorem gateTile_eq (c : Dev nD) (t : Fin cfg0.N) (p : Fin 256) (q : Fin 64) :
    gateTile (iblk m c 0 t) (iblk m c 3 t) (iblk m c 4 t) p q
      = gateRow (V m c (Pipeline.arrRef spec0 0)) (V m c (Pipeline.arrRef spec0 3)) (V m c (Pipeline.arrRef spec0 4)) (rowOf t p) q := by
  unfold gateTile preTile gateRow preRow
  simp only [read0, read3, read4]

/-- The output tile's entry is the row function at the tile's array row. -/
theorem outTile_eq (c : Dev nD) (t : Fin cfg0.N) (p : Fin 256) (e : Fin 2048) :
    outTile (iblk m c 0 t) (iblk m c 3 t) (iblk m c 4 t) (iblk m c 5 t) (iblk m c 1 t) (iblk m c 2 t) p e
      = outRow (V m c (Pipeline.arrRef spec0 0)) (V m c (Pipeline.arrRef spec0 1)) (V m c (Pipeline.arrRef spec0 2))
          (V m c (Pipeline.arrRef spec0 3)) (V m c (Pipeline.arrRef spec0 4)) (V m c (Pipeline.arrRef spec0 5)) (rowOf t p) e := by
  unfold outTile outRow
  simp only [read0, read1, read2, read5, gateTile_eq]

/-! ## What a tile writes back -/

-- the stored values and the row functions are sums of thousands of terms: they are compared by name, never unfolded
attribute [local irreducible] k0_pay2 k0_pay1 outAll gateAll

/-- Tile `t` writes back rows `256·t …` of the gate array. -/
theorem flushed7_eq (c : Dev nD) (t : Fin cfg0.N) :
    (dats m 0 c).flushed 7 t = ((cfg0.win 7).blk t).view.read (Elt Ideal)
      (gateAll (V m c (Pipeline.arrRef spec0 0)) (V m c (Pipeline.arrRef spec0 3)) (V m c (Pipeline.arrRef spec0 4))) := by
  rw [Cert.KernelIdeal.Value.flushed7]
  unfold out0_7
  rw [View.canon_unit_zero hz]
  simp only [View.ld_unit_zero (S := S256x2048) hz, View.ld_unit_zero (S := S2048x64) hz, View.ld_unit_zero (S := S1x64) hz]
  funext y
  obtain ⟨p, q, rfl⟩ : ∃ (p : Fin 256) (q : Fin 64), y = ix2 p q := ⟨y 0, y 1, eq_ix2 y⟩
  show k0_pay1 (iblk m c 0 t) (iblk m c 3 t) (iblk m c 4 t) (ix2 p q)
    = gateAll (V m c (Pipeline.arrRef spec0 0)) (V m c (Pipeline.arrRef spec0 3)) (V m c (Pipeline.arrRef spec0 4))
        (((cfg0.win 7).blk t).view.emb (ix2 p q))
  refine (pay1_apply (iblk m c 0 t) (iblk m c 3 t) (iblk m c 4 t) p q).trans ((gateTile_eq m c t p q).trans ?_)
  unfold gateAll
  have hr : (((cfg0.win 7).blk t).view.emb (ix2 p q)) 0 = rowOf t p := Fin.ext (by
    show win0_7.index t (0 : Fin 2) * 256 + 1 * p.val = win0_7.index t (0 : Fin 2) * 256 + p.val; omega)
  have hc : (((cfg0.win 7).blk t).view.emb (ix2 p q)) 1 = q := Fin.ext (by
    obtain ⟨-, -, -, -, e4, -⟩ := idx_facts t
    show win0_7.index t (1 : Fin 2) * 64 + 1 * q.val = q.val; omega)
  rw [hr, hc]

/-- Tile `t` writes back rows `256·t …` of the output array. -/
theorem flushed6_eq (c : Dev nD) (t : Fin cfg0.N) :
    (dats m 0 c).flushed 6 t = ((cfg0.win 6).blk t).view.read (Elt Ideal)
      (outAll (V m c (Pipeline.arrRef spec0 0)) (V m c (Pipeline.arrRef spec0 1)) (V m c (Pipeline.arrRef spec0 2))
        (V m c (Pipeline.arrRef spec0 3)) (V m c (Pipeline.arrRef spec0 4)) (V m c (Pipeline.arrRef spec0 5))) := by
  rw [Cert.KernelIdeal.Value.flushed6]
  unfold out0_6
  rw [View.canon_unit_zero hz]
  simp only [View.ld_unit_zero (S := S256x2048) hz, View.ld_unit_zero (S := S2048x64) hz, View.ld_unit_zero (S := S1x64) hz,
    View.ld_unit_zero (S := S64x2048) hz, View.ld_unit_zero (S := S2048x2048) hz]
  funext y
  obtain ⟨p, e, rfl⟩ : ∃ (p : Fin 256) (e : Fin 2048), y = ix2 p e := ⟨y 0, y 1, eq_ix2 y⟩
  show k0_pay2 (iblk m c 0 t) (iblk m c 3 t) (iblk m c 4 t) (iblk m c 5 t) (iblk m c 1 t) (iblk m c 2 t) (ix2 p e)
    = outAll (V m c (Pipeline.arrRef spec0 0)) (V m c (Pipeline.arrRef spec0 1)) (V m c (Pipeline.arrRef spec0 2))
        (V m c (Pipeline.arrRef spec0 3)) (V m c (Pipeline.arrRef spec0 4)) (V m c (Pipeline.arrRef spec0 5))
        (((cfg0.win 6).blk t).view.emb (ix2 p e))
  refine (pay2_apply (iblk m c 0 t) (iblk m c 3 t) (iblk m c 4 t) (iblk m c 5 t) (iblk m c 1 t) (iblk m c 2 t) p e).trans
    ((outTile_eq m c t p e).trans ?_)
  unfold outAll
  have hr : (((cfg0.win 6).blk t).view.emb (ix2 p e)) 0 = rowOf t p := Fin.ext (by
    obtain ⟨-, -, e2, -⟩ := idx_facts t
    show win0_6.index t (0 : Fin 2) * 256 + 1 * p.val = win0_7.index t (0 : Fin 2) * 256 + p.val; omega)
  have hc : (((cfg0.win 6).blk t).view.emb (ix2 p e)) 1 = e := Fin.ext (by
    obtain ⟨-, -, -, e3, -⟩ := idx_facts t
    show win0_6.index t (1 : Fin 2) * 2048 + 1 * e.val = e.val; omega)
  rw [hr, hc]

/-! ## The tiles cover the arrays -/

theorem mem_blk7 (t : Fin cfg0.N) (i : S2048x64.Idx) :
    i ∈ ((cfg0.win 7).blk t).view.set ↔ ∀ a : Fin 2, win0_7.index t a * S256x64.size a ≤ (i a).val ∧ (i a).val < win0_7.index t a * S256x64.size a + S256x64.size a := by
  show i ∈ ((View.whole main_v0_1).slice (win0_7.rect t)).set ↔ _
  rw [View.set_slice_whole, Rect.mem_set_unit]
  exact Iff.rfl

theorem mem_blk6 (t : Fin cfg0.N) (i : S2048x2048.Idx) :
    i ∈ ((cfg0.win 6).blk t).view.set ↔ ∀ a : Fin 2, win0_6.index t a * S256x2048.size a ≤ (i a).val ∧ (i a).val < win0_6.index t a * S256x2048.size a + S256x2048.size a := by
  show i ∈ ((View.whole main_v0_0).slice (win0_6.rect t)).set ↔ _
  rw [View.set_slice_whole, Rect.mem_set_unit]
  exact Iff.rfl

/-- Row `b` of the gate array lies in the tile numbered `b / 256`. -/
theorem cover7 (i : S2048x64.Idx) : ∃ t : Fin cfg0.N, (cfg0.win 7).flush t = true ∧ i ∈ ((cfg0.win 7).blk t).view.set := by
  have hi0 : (i 0).val < 2048 := (i 0).isLt
  have hi1 : (i 1).val < 64 := (i 1).isLt
  obtain ⟨t, ht⟩ := idx_onto ⟨(i 0).val / 256, by omega⟩
  have q0 : win0_7.index t (0 : Fin 2) = (i 0).val / 256 := ht
  obtain ⟨-, -, -, -, e4, -⟩ := idx_facts t
  refine ⟨t, flush0_7 t, ?_⟩
  rw [mem_blk7]
  intro a
  match a with
  | ⟨0, _⟩ => show win0_7.index t (0 : Fin 2) * 256 ≤ (i 0).val ∧ (i 0).val < win0_7.index t (0 : Fin 2) * 256 + 256; omega
  | ⟨1, _⟩ => show win0_7.index t (1 : Fin 2) * 64 ≤ (i 1).val ∧ (i 1).val < win0_7.index t (1 : Fin 2) * 64 + 64; omega

/-- Row `b` of the output array lies in the tile numbered `b / 256`. -/
theorem cover6 (i : S2048x2048.Idx) : ∃ t : Fin cfg0.N, (cfg0.win 6).flush t = true ∧ i ∈ ((cfg0.win 6).blk t).view.set := by
  have hi0 : (i 0).val < 2048 := (i 0).isLt
  have hi1 : (i 1).val < 2048 := (i 1).isLt
  obtain ⟨t, ht⟩ := idx_onto ⟨(i 0).val / 256, by omega⟩
  have q0 : win0_7.index t (0 : Fin 2) = (i 0).val / 256 := ht
  obtain ⟨-, -, e2, e3, -⟩ := idx_facts t
  refine ⟨t, flush0_6 t, ?_⟩
  rw [mem_blk6]
  intro a
  match a with
  | ⟨0, _⟩ => show win0_6.index t (0 : Fin 2) * 256 ≤ (i 0).val ∧ (i 0).val < win0_6.index t (0 : Fin 2) * 256 + 256; omega
  | ⟨1, _⟩ => show win0_6.index t (1 : Fin 2) * 2048 ≤ (i 1).val ∧ (i 1).val < win0_6.index t (1 : Fin 2) * 2048 + 2048; omega

/-! ## The arrays after the run -/

theorem final7 (c : Dev nD) : (dats m 0 c).arrAt 7 cfg0.N
    = gateAll (V m c (Pipeline.arrRef spec0 0)) (V m c (Pipeline.arrRef spec0 3)) (V m c (Pipeline.arrRef spec0 4)) :=
  (dats m 0 c).arrAt_eq_of_cover 7 _ (fun t _ => flushed7_eq m c t) cover7

theorem final6 (c : Dev nD) : (dats m 0 c).arrAt 6 cfg0.N
    = outAll (V m c (Pipeline.arrRef spec0 0)) (V m c (Pipeline.arrRef spec0 1)) (V m c (Pipeline.arrRef spec0 2))
        (V m c (Pipeline.arrRef spec0 3)) (V m c (Pipeline.arrRef spec0 4)) (V m c (Pipeline.arrRef spec0 5)) :=
  (dats m 0 c).arrAt_eq_of_cover 6 _ (fun t _ => flushed6_eq m c t) cover6

end Cert.Bridge.Tiles

end
-- ==== Proof.HostSide.lean ====
/-
  What the host prefix of the kernel's program leaves in the arrays the region's windows stage, read at
  coordinates, over the extended reals.

  Before its one region the program prepares the weights: V [64, 32, 2048] is reshaped to a matrix [2048, 2048]
  whose row r + 32 n is row r of member n; U [64, 2048, 32] has each member transposed and is reshaped the same
  way, so row r + 32 n, column d is U[n, d, r]; the encoder [64, 2048] is transposed; the bias [64] becomes one
  row [1, 64]; and a 0/1 matrix [64, 2048] is built as the Kronecker product of the 64 × 64 identity with a row of
  32 ones, so its entry (n', r + 32 n) is one exactly when n' = n. Three of these are narrowed to a shorter float
  type, which over the extended reals changes nothing. The last scalar factor, the product of the two Frobenius
  norms member by member over 256, is kept as the composed term.

  Each array is first identified with the term its operations compose to, then that term is read at an index:
  a reshape keeps the row-major position, a transpose permutes the coordinates, a broadcast drops the
  coordinates on the operand's unit axes.
-/
import proofs.«100150_j55645596287642_2_alg».proof.Proof.Gen.KernelIdeal.Frame
import Idealize.ShloMosaic.Lib.ValueIdx
import Idealize.ShloMosaic.Lib.Pipeline.Value
import Idealize.ShloMosaic.Lib.ValueLayout
import Idealize.ShloMosaic.Lib.IdealHost
import Idealize.ShloMosaic.Lib.StableHlo.Run

noncomputable section

namespace Cert.Bridge.HostSide

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ) (c : Dev nD)

/-! ## The arrays as terms over the launch contents -/

/-- The weights V, reshaped from [64, 32, 2048] to [2048, 2048] and narrowed. -/
theorem vr_term : (V m c main_call0_v0_0 : S2048x2048.Idx → EReal)
    = truncf (F := Ideal) .bf16 (shapeCast S2048x2048 (m ((c : Thread nD τ).loc main_arg1)) shapeCasts_S64x32x2048_S2048x2048) bitsLt_bf16_f32 := by
  dsimp only [Gen.V, Gen.hostOps0]
  after_results
  rfl

/-- The weights U, each member transposed, reshaped from [64, 32, 2048] to [2048, 2048] and narrowed. -/
theorem ucat_term : (V m c main_call0_v0_1 : S2048x2048.Idx → EReal)
    = truncf (F := Ideal) .bf16 (shapeCast S2048x2048 (transpose S64x32x2048 [0, 2, 1] (m ((c : Thread nD τ).loc main_arg2)) transposes_S64x2048x32_S64x32x2048_0_2_1) shapeCasts_S64x32x2048_S2048x2048) bitsLt_bf16_f32 := by
  dsimp only [Gen.V, Gen.hostOps0]
  after_results
  rfl

/-- The encoder, transposed. -/
theorem encT_term : (V m c main_call0_v0_2 : S2048x64.Idx → EReal)
    = transpose S2048x64 [1, 0] (m ((c : Thread nD τ).loc main_arg3)) transposes_S64x2048_S2048x64_1_0 := by
  dsimp only [Gen.V, Gen.hostOps0]
  after_results
  rfl

/-- The bias as one row. -/
theorem bias_term : (V m c main_call0_v0_3 : S1x64.Idx → EReal)
    = shapeCast S1x64 (m ((c : Thread nD τ).loc main_arg4)) shapeCasts_S64_S1x64 := by
  dsimp only [Gen.V, Gen.hostOps0]
  after_results
  rfl

/-- The 64 × 64 identity as the program builds it: the bit of "row number plus zero equals column number", read
as a number. -/
def eyeTerm : FVec Ideal S64x64 .f32 :=
  uitofp .f32 (cmpi .eq (addi (iotaInDim S64x64 32 0) (broadcastInDim S64x64 ![] bcast_S_S64x64 (constantI S_ 32 0#32))) (iotaInDim S64x64 32 1))

/-- A row of 32 ones. -/
def onesTerm : FVec Ideal S1x32 .f32 :=
  broadcastInDim S1x32 ![] bcast_S_S1x32 (constant (F := Ideal) S_ .f32 0x3F800000#32)

/-- The Kronecker product of the identity with the row of ones, as a [64, 1, 64, 32] array: both factors broadcast
to that shape and multiplied. -/
def kronTerm : FVec Ideal S64x1x64x32 .f32 :=
  mulf (broadcastInDim S64x1x64x32 ![0, 1, 2, 3] bcast_S64x1x64x1_S64x1x64x32_0_1_2_3 (broadcastInDim S64x1x64x1 ![0, 2] bcast_S64x64_S64x1x64x1_0_2 eyeTerm))
    (broadcastInDim S64x1x64x32 ![0, 1, 2, 3] bcast_S1x1x1x32_S64x1x64x32_0_1_2_3 (broadcastInDim S1x1x1x32 ![1, 3] bcast_S1x32_S1x1x1x32_1_3 onesTerm))

/-- The 0/1 matrix: the Kronecker product reshaped to [64, 2048] and narrowed. -/
theorem expand_term : (V m c main_call0_v0_4 : S64x2048.Idx → EReal)
    = truncf .bf16 (shapeCast S64x2048 kronTerm shapeCasts_S64x1x64x32_S64x2048) bitsLt_bf16_f32 := by
  dsimp only [Gen.V, Gen.hostOps0]
  after_results
  rfl

/-! ## The layout terms read at coordinates -/

/-- A [64, 32, 2048] array reshaped to [2048, 2048]: row `r + 32 n` is row `r` of member `n`, both at
row-major position `(32 n + r) · 2048 + d`. -/
theorem reshape_rows_apply (x : S64x32x2048.Idx → EReal) (n : Fin 64) (r : Fin 32) (d : Fin 2048)
    (h : r.val + 32 * n.val < 2048) :
    shapeCast S2048x2048 x shapeCasts_S64x32x2048_S2048x2048 (ix2 ⟨r.val + 32 * n.val, h⟩ d) = x (ix3 n r d) :=
  shapeCast_apply x shapeCasts_S64x32x2048_S2048x2048 _ _ (by
    rw [Shape.rowMajor_val_three, Shape.rowMajor_val_two]
    show (n.val * 32 + r.val) * 2048 + d.val = (r.val + 32 * n.val) * 2048 + d.val
    omega)

/-- Vr[(n, r), d] = V[n, r, d]. -/
theorem vr_apply (n : Fin 64) (r : Fin 32) (d : Fin 2048) (h : r.val + 32 * n.val < 2048) :
    V m c main_call0_v0_0 (ix2 ⟨r.val + 32 * n.val, h⟩ d) = m ((c : Thread nD τ).loc main_arg1) (ix3 n r d) := by
  have e := vr_term m c
  exact (congrFun e _).trans ((truncf_apply (ψ := .bf16) _ bitsLt_bf16_f32 _).trans (reshape_rows_apply _ n r d h))

/-- Ucat[(n, r), d] = U[n, d, r]. -/
theorem ucat_apply (n : Fin 64) (r : Fin 32) (d : Fin 2048) (h : r.val + 32 * n.val < 2048) :
    V m c main_call0_v0_1 (ix2 ⟨r.val + 32 * n.val, h⟩ d) = m ((c : Thread nD τ).loc main_arg2) (ix3 n d r) := by
  have e := ucat_term m c
  refine (congrFun e _).trans ((truncf_apply (ψ := .bf16) _ bitsLt_bf16_f32 _).trans ?_)
  refine (reshape_rows_apply _ n r d h).trans ?_
  exact transpose_ix3_021_apply (m ((c : Thread nD τ).loc main_arg2)) transposes_S64x2048x32_S64x32x2048_0_2_1 n r d

/-- encT[d, n] = encoder[n, d]. -/
theorem encT_apply (n : Fin 64) (d : Fin 2048) :
    V m c main_call0_v0_2 (ix2 d n) = m ((c : Thread nD τ).loc main_arg3) (ix2 n d) := by
  have e := encT_term m c
  refine (congrFun e _).trans ?_
  exact transpose_ix2_apply (m ((c : Thread nD τ).loc main_arg3)) transposes_S64x2048_S2048x64_1_0 d n

/-- bias2d[0, n] = bias[n]. -/
theorem bias_apply (n : Fin 64) :
    V m c main_call0_v0_3 (ix2 (0 : Fin 1) n) = m ((c : Thread nD τ).loc main_arg4) (ix1 n) := by
  have e := bias_term m c
  refine (congrFun e _).trans ?_
  exact shapeCast_a_1a_apply (m ((c : Thread nD τ).loc main_arg4)) shapeCasts_S64_S1x64 0 n

/-! ## The 0/1 matrix -/

/-- The identity at (a, b): one on the diagonal, zero off it. The two iotas are the coordinates as 32-bit words;
the coordinates are below 64, so the words agree exactly when the coordinates do. -/
theorem eye_apply (a b : Fin 64) : eyeTerm (ix2 a b) = if a = b then (1 : EReal) else 0 := by
  have h0 : (broadcastInDim S64x64 ![] bcast_S_S64x64 (constantI S_ 32 0#32)) (ix2 a b) = 0#32 := by
    rw [broadcastInDim_scalar_apply]; rfl
  have key : IntOp.cmpi .eq (IntOp.addi (BitVec.ofNat 32 a.val) 0#32) (BitVec.ofNat 32 b.val) = if a = b then 1#1 else 0#1 := by
    by_cases hab : a = b
    · subst hab; rw [if_pos rfl]; simp [IntOp.cmpi, IntOp.addi]
    · rw [if_neg hab]
      apply eq_zero_of_ne_one
      rw [IntOp.cmpi_eq]
      intro he
      apply hab
      have h1 := congrArg BitVec.toNat he
      simp only [IntOp.addi, BitVec.add_zero, BitVec.toNat_ofNat] at h1
      apply Fin.ext
      have ha := a.isLt
      have hb := b.isLt
      omega
  show (((IntOp.cmpi .eq (IntOp.addi (BitVec.ofNat 32 a.val) ((broadcastInDim S64x64 ![] bcast_S_S64x64 (constantI S_ 32 0#32)) (ix2 a b))) (BitVec.ofNat 32 b.val)).toNat : ℝ) : EReal) = _
  rw [h0, key]
  by_cases hab : a = b
  · rw [if_pos hab, if_pos hab]; simp
  · rw [if_neg hab, if_neg hab]; simp

/-- The row of ones reads one everywhere. -/
theorem ones_apply (u : Fin 1) (r : Fin 32) : onesTerm (ix2 u r) = 1 := by
  unfold onesTerm
  rw [broadcastInDim_scalar_apply]
  exact Ideal.ofBits_one_f32

/-- A matrix [64, 64] broadcast to [64, 1, 64, 32] along axes 0 and 2 reads, at (n', 0, n, r), its entry (n', n). -/
theorem bcast_eye_apply (y : S64x64.Idx → EReal) (n' n : Fin 64) (r : Fin 32) :
    broadcastInDim S64x1x64x32 ![0, 1, 2, 3] bcast_S64x1x64x1_S64x1x64x32_0_1_2_3
      (broadcastInDim S64x1x64x1 ![0, 2] bcast_S64x64_S64x1x64x1_0_2 y) (ix4 n' (0 : Fin 1) n r) = y (ix2 n' n) :=
  (broadcastInDim_apply ![0, 1, 2, 3] bcast_S64x1x64x1_S64x1x64x32_0_1_2_3 (broadcastInDim S64x1x64x1 ![0, 2] bcast_S64x64_S64x1x64x1_0_2 y)
      (ix4 n' (0 : Fin 1) n r) (ix4 n' (0 : Fin 1) n (0 : Fin 1))
      (fun a => match a with | ⟨0, _⟩ => rfl | ⟨1, _⟩ => rfl | ⟨2, _⟩ => rfl | ⟨3, _⟩ => rfl)).trans
    (broadcastInDim_apply ![0, 2] bcast_S64x64_S64x1x64x1_0_2 y (ix4 n' (0 : Fin 1) n (0 : Fin 1)) (ix2 n' n)
      (fun a => match a with | ⟨0, _⟩ => rfl | ⟨1, _⟩ => rfl))

/-- A row [1, 32] broadcast to [64, 1, 64, 32] along axes 1 and 3 reads, at (n', 0, n, r), its entry (0, r). -/
theorem bcast_ones_apply (y : S1x32.Idx → EReal) (n' n : Fin 64) (r : Fin 32) :
    broadcastInDim S64x1x64x32 ![0, 1, 2, 3] bcast_S1x1x1x32_S64x1x64x32_0_1_2_3
      (broadcastInDim S1x1x1x32 ![1, 3] bcast_S1x32_S1x1x1x32_1_3 y) (ix4 n' (0 : Fin 1) n r) = y (ix2 (0 : Fin 1) r) :=
  (broadcastInDim_apply ![0, 1, 2, 3] bcast_S1x1x1x32_S64x1x64x32_0_1_2_3 (broadcastInDim S1x1x1x32 ![1, 3] bcast_S1x32_S1x1x1x32_1_3 y)
      (ix4 n' (0 : Fin 1) n r) (ix4 (0 : Fin 1) (0 : Fin 1) (0 : Fin 1) r)
      (fun a => match a with | ⟨0, _⟩ => rfl | ⟨1, _⟩ => rfl | ⟨2, _⟩ => rfl | ⟨3, _⟩ => rfl)).trans
    (broadcastInDim_apply ![1, 3] bcast_S1x32_S1x1x1x32_1_3 y (ix4 (0 : Fin 1) (0 : Fin 1) (0 : Fin 1) r) (ix2 (0 : Fin 1) r)
      (fun a => match a with | ⟨0, _⟩ => rfl | ⟨1, _⟩ => rfl))

/-- The Kronecker product at (n', 0, n, r): the identity's entry (n', n) times one. -/
theorem kron_apply (n' n : Fin 64) (r : Fin 32) : kronTerm (ix4 n' (0 : Fin 1) n r) = if n' = n then (1 : EReal) else 0 := by
  unfold kronTerm
  rw [mulf_apply, bcast_eye_apply, bcast_ones_apply, eye_apply, ones_apply, mul_one]

/-- A [64, 1, 64, 32] array reshaped to [64, 2048]: column `r + 32 n` of row `n'` is entry (n', 0, n, r), both at
row-major position `2048 n' + 32 n + r`. -/
theorem reshape_cols_apply (x : S64x1x64x32.Idx → EReal) (n' n : Fin 64) (r : Fin 32) (h : r.val + 32 * n.val < 2048) :
    shapeCast S64x2048 x shapeCasts_S64x1x64x32_S64x2048 (ix2 n' ⟨r.val + 32 * n.val, h⟩) = x (ix4 n' (0 : Fin 1) n r) :=
  shapeCast_apply x shapeCasts_S64x1x64x32_S64x2048 _ _ (by
    rw [Shape.rowMajor_val_four, Shape.rowMajor_val_two]
    show ((n'.val * 1 + 0) * 64 + n.val) * 32 + r.val = n'.val * 2048 + (r.val + 32 * n.val)
    omega)

/-- expand[n', (n, r)] = [n' = n]. -/
theorem expand_apply (n' n : Fin 64) (r : Fin 32) (h : r.val + 32 * n.val < 2048) :
    V m c main_call0_v0_4 (ix2 n' ⟨r.val + 32 * n.val, h⟩) = if n' = n then (1 : EReal) else 0 := by
  have e := expand_term m c
  refine (congrFun e _).trans ((truncf_apply (ψ := .bf16) _ bitsLt_bf16_f32 _).trans ?_)
  rw [reshape_cols_apply, kron_apply]

/-! ## The norm factor -/

/-- The product of the two Frobenius norms, member by member, over 256: each weight array reshaped to [64, 65536],
squared, summed along the long axis from zero and rooted; the two roots multiplied and divided by the constant
256. Kept as the composed term. -/
def frobTerm (u : FVec Ideal S64x2048x32 .f32) (v : FVec Ideal S64x32x2048 .f32) : FVec Ideal S64 .f32 :=
  Host.divf (F := Ideal)
    (mulf
      (Host.sqrt (F := Ideal) (Host.reduceAdd (F := Ideal)
        (mulf (shapeCast S64x65536 u shapeCasts_S64x2048x32_S64x65536) (shapeCast S64x65536 u shapeCasts_S64x2048x32_S64x65536))
        (constant (F := Ideal) S_ .f32 0x00000000#32) reducesTo_S64x65536_S64_d1 h_S_))
      (Host.sqrt (F := Ideal) (Host.reduceAdd (F := Ideal)
        (mulf (shapeCast S64x65536 v shapeCasts_S64x32x2048_S64x65536) (shapeCast S64x65536 v shapeCasts_S64x32x2048_S64x65536))
        (constant (F := Ideal) S_ .f32 0x00000000#32) reducesTo_S64x65536_S64_d1 h_S_)))
    (broadcastInDim S64 ![] bcast_S_S64 (constant (F := Ideal) S_ .f32 0x43800000#32))

/-- The scalar factor the region finds is that term of the launch contents of U and V. -/
theorem frob_term : (V m c main_v0_2 : S64.Idx → EReal)
    = frobTerm (m ((c : Thread nD τ).loc main_arg2)) (m ((c : Thread nD τ).loc main_arg1)) := by
  dsimp only [Gen.V, Gen.hostOps0]
  after_results_simp
  rfl

end Cert.Bridge.HostSide

end
-- ==== Proof.LibRealEntries.lean ====
import Mathlib.Data.EReal.Operations
import Mathlib.Data.EReal.Inv
import Mathlib.Algebra.BigOperators.Fin
import Mathlib.Logic.Equiv.Fin.Basic

/-! # Extended reals that are real numbers

The extended reals are not a ring: `⊤ + ⊥ = ⊥` breaks distributivity. Among the entries that are REAL numbers the
usual laws hold again. This file collects what a proof about finite sums of real entries needs:

* the real entries are closed under `0`, `1`, the cast of a natural number, `+`, `-`, `*` and finite sums;
* a finite sum of casts is the cast of the sum;
* among real entries a factor distributes over a sum, and a real factor `g` sitting inside every term of a finite
  sum of real products `(a i * g) * u i` can be pulled out: the sum is `(∑ a i * u i) * g`;
* a sum over `Fin (m * n)` is the double sum over `Fin m` and `Fin n` along `(p, q) ↦ q + n * p`. -/

namespace Cert.LibRealEntries

/-- An extended real that is a real number. -/
def IsReal (x : EReal) : Prop := ∃ r : ℝ, x = (r : EReal)

theorem isReal_coe (r : ℝ) : IsReal (r : EReal) := ⟨r, rfl⟩

theorem isReal_zero : IsReal 0 := ⟨0, EReal.coe_zero.symm⟩

theorem isReal_one : IsReal 1 := ⟨1, EReal.coe_one.symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of real entries is a real entry. -/
theorem IsReal.sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- A finite sum of casts is the cast of the sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Among real entries a factor distributes over a sum. -/
theorem add_mul_of_isReal {x y g : EReal} (hx : IsReal x) (hy : IsReal y) (hg : IsReal g) :
    (x + y) * g = x * g + y * g := by
  obtain ⟨a, rfl⟩ := hx
  obtain ⟨b, rfl⟩ := hy
  obtain ⟨c, rfl⟩ := hg
  rw [← EReal.coe_add, ← EReal.coe_mul, ← EReal.coe_mul, ← EReal.coe_mul, ← EReal.coe_add, add_mul]

/-- A real factor `g` inside every term of a finite sum of real products comes out of the sum. -/
theorem sum_mul_mul_eq {ι : Type*} (s : Finset ι) (a u : ι → EReal) (g : EReal)
    (ha : ∀ i ∈ s, IsReal (a i)) (hu : ∀ i ∈ s, IsReal (u i)) (hg : IsReal g) :
    ∑ i ∈ s, (a i * g) * u i = (∑ i ∈ s, a i * u i) * g := by
  classical
  induction s using Finset.induction_on with
  | empty => simp
  | insert j s hj ih =>
    have hs : IsReal (∑ i ∈ s, a i * u i) :=
      IsReal.sum s _ fun i hi => (ha i (Finset.mem_insert_of_mem hi)).mul (hu i (Finset.mem_insert_of_mem hi))
    rw [Finset.sum_insert hj, Finset.sum_insert hj,
      ih (fun i hi => ha i (Finset.mem_insert_of_mem hi)) (fun i hi => hu i (Finset.mem_insert_of_mem hi)),
      add_mul_of_isReal ((ha j (Finset.mem_insert_self j s)).mul (hu j (Finset.mem_insert_self j s))) hs hg,
      show a j * g * u j = a j * u j * g from mul_right_comm (a j) g (u j)]

/-- A sum over `Fin (m * n)` is the double sum over `Fin m` and `Fin n`, entry `(p, q)` at `q + n * p`. -/
theorem sum_fin_mul {M : Type*} [AddCommMonoid M] {m n : Nat} (f : Fin (m * n) → M) :
    ∑ k, f k = ∑ p : Fin m, ∑ q : Fin n, f (finProdFinEquiv (p, q)) := by
  rw [← finProdFinEquiv.sum_comp, Fintype.sum_prod_type]

end Cert.LibRealEntries
-- ==== Proof.Mixture.lean ====
import Idealize.ShloMosaic.PureOps.Ideal
import Idealize.ShloMosaic.PureOps.Ideal.Laws
import Idealize.ShloMosaic.Lib.ValueIdx
import proofs.«100150_j55645596287642_2_alg».proof.Proof.LibRealEntries

/-! # The gated low-rank mixture as one function of its argument arrays

For a batch row `b`, a transform `n` and a model coordinate `e`:

* the pre-activation is `pre b n = (∑ k, x[b,k] · enc[n,k]) − bias[n]`;
* the gate is the hard threshold `gate b n = pre b n · [pre b n > 0]`, the bracket being the number 0 or 1;
* the rank-`r` coefficient of transform `n` is `low b n r = ∑ d, x[b,d] · V[n,r,d]`;
* the mixture is `mix b e = ∑ n, (∑ r, low b n r · U[n,e,r]) · gate b n`.

That is the arrangement of the reference. The kernel stacks the 64 transforms of rank 32 into 2048 positions
`k = r + 32·n`: it reads a matrix `vr` with `vr[k,d] = V[n,r,d]`, a matrix `ucat` with `ucat[k,e] = U[n,e,r]`, spreads the
gate over the positions by a product with the 0/1 matrix `E[n',k] = [n' = n]`, and sums ONE product over `k`:
`∑ k, ((∑ d, x[b,d] · vr[k,d]) · (∑ n', gate b n' · E[n',k])) · ucat[k,e]`.

The two agree when every entry is a real number (`stacked_eq_mix`): the spread picks `gate b n` out of its sum (all
other terms are products with zero); the sum over the 2048 positions is the double sum over `n` and `r`; and the real
factor `gate b n`, which the kernel multiplies into every rank term, comes out of the sum over `r` — the one step
that needs real entries, since a factor does not distribute over a sum of infinite extended reals. -/

noncomputable section

namespace Cert.Bridge.Mixture

open Idealize.ShloMosaic Idealize.ShloMosaic.ValueIdx Cert.LibRealEntries

variable (x : (⟨2, ![2048, 2048]⟩ : Shape).Idx → EReal) (V : (⟨3, ![64, 32, 2048]⟩ : Shape).Idx → EReal)
  (U : (⟨3, ![64, 2048, 32]⟩ : Shape).Idx → EReal) (enc : (⟨2, ![64, 2048]⟩ : Shape).Idx → EReal)
  (bias : (⟨1, ![64]⟩ : Shape).Idx → EReal)

/-- The pre-activation of row `b` for transform `n`. -/
def pre (b : Fin 2048) (n : Fin 64) : EReal :=
  (∑ k : Fin 2048, x (ix2 b k) * enc (ix2 n k)) - bias (ix1 n)

/-- The hard-threshold gate: the pre-activation times the number 0 or 1 of the comparison with zero. -/
def gate (b : Fin 2048) (n : Fin 64) : EReal :=
  pre x enc bias b n
    * FloatOps.uitofp (F := Ideal) .f32 (FloatOps.cmpf (F := Ideal) .ogt (pre x enc bias b n) (Ideal.ofBits .f32 0x00000000#32))

/-- The rank-`r` coefficient of transform `n` on row `b`. -/
def low (b : Fin 2048) (n : Fin 64) (r : Fin 32) : EReal :=
  ∑ d : Fin 2048, x (ix2 b d) * V (ix3 n r d)

/-- The mixture at row `b`, model coordinate `e`. -/
def mix (b e : Fin 2048) : EReal :=
  ∑ n : Fin 64, (∑ r : Fin 32, low x V b n r * U (ix3 n e r)) * gate x enc bias b n

/-- The two result arrays as functions of an index. -/
def mixArr : (⟨2, ![2048, 2048]⟩ : Shape).Idx → EReal := fun i => mix x V U enc bias (i 0) (i 1)

def gateArr : (⟨2, ![2048, 64]⟩ : Shape).Idx → EReal := fun i => gate x enc bias (i 0) (i 1)

variable {x V U enc bias}

theorem isReal_pre (hx : ∀ i, IsReal (x i)) (he : ∀ i, IsReal (enc i)) (hb : ∀ i, IsReal (bias i)) (b : Fin 2048) (n : Fin 64) :
    IsReal (pre x enc bias b n) :=
  (IsReal.sum _ _ fun k _ => (hx _).mul (he _)).sub (hb _)

theorem isReal_gate (hx : ∀ i, IsReal (x i)) (he : ∀ i, IsReal (enc i)) (hb : ∀ i, IsReal (bias i)) (b : Fin 2048) (n : Fin 64) :
    IsReal (gate x enc bias b n) :=
  (isReal_pre hx he hb b n).mul (isReal_coe _)

theorem isReal_low (hx : ∀ i, IsReal (x i)) (hV : ∀ i, IsReal (V i)) (b : Fin 2048) (n : Fin 64) (r : Fin 32) :
    IsReal (low x V b n r) :=
  IsReal.sum _ _ fun d _ => (hx _).mul (hV _)

/-- A sum over the 2048 stacked positions is the double sum over transform and rank, position `r + 32·n`. -/
theorem sum_stacked {M : Type*} [AddCommMonoid M] (f : Fin 2048 → M) :
    ∑ k, f k = ∑ n : Fin 64, ∑ r : Fin 32, f ⟨r.val + 32 * n.val, by have := n.isLt; have := r.isLt; omega⟩ :=
  sum_fin_mul (m := 64) (n := 32) f

/-- THE LAW: on real entries the kernel's one sum over the stacked positions is the reference's mixture. -/
theorem stacked_eq_mix (hx : ∀ i, IsReal (x i)) (hV : ∀ i, IsReal (V i)) (hU : ∀ i, IsReal (U i))
    (he : ∀ i, IsReal (enc i)) (hb : ∀ i, IsReal (bias i))
    (vr ucat : (⟨2, ![2048, 2048]⟩ : Shape).Idx → EReal) (E : (⟨2, ![64, 2048]⟩ : Shape).Idx → EReal)
    (hvr : ∀ (n : Fin 64) (r : Fin 32) (d : Fin 2048) (h : r.val + 32 * n.val < 2048),
      vr (ix2 ⟨r.val + 32 * n.val, h⟩ d) = V (ix3 n r d))
    (hucat : ∀ (n : Fin 64) (r : Fin 32) (e : Fin 2048) (h : r.val + 32 * n.val < 2048),
      ucat (ix2 ⟨r.val + 32 * n.val, h⟩ e) = U (ix3 n e r))
    (hE : ∀ (n' n : Fin 64) (r : Fin 32) (h : r.val + 32 * n.val < 2048),
      E (ix2 n' ⟨r.val + 32 * n.val, h⟩) = if n' = n then (1 : EReal) else 0)
    (b e : Fin 2048) :
    ∑ k : Fin 2048, ((∑ d : Fin 2048, x (ix2 b d) * vr (ix2 k d)) * (∑ n' : Fin 64, gate x enc bias b n' * E (ix2 n' k)))
        * ucat (ix2 k e)
      = mix x V U enc bias b e := by
  rw [sum_stacked]
  unfold mix
  refine Finset.sum_congr rfl fun n _ => ?_
  rw [← sum_mul_mul_eq Finset.univ (fun r => low x V b n r) (fun r => U (ix3 n e r)) (gate x enc bias b n)
    (fun r _ => isReal_low hx hV b n r) (fun r _ => hU _) (isReal_gate hx he hb b n)]
  refine Finset.sum_congr rfl fun r _ => ?_
  have hspread : ∑ n' : Fin 64, gate x enc bias b n' * E (ix2 n' ⟨r.val + 32 * n.val, by have := n.isLt; have := r.isLt; omega⟩)
      = gate x enc bias b n := by
    rw [Finset.sum_eq_single n]
    · rw [hE, if_pos rfl, mul_one]
    · intro n' _ hne
      rw [hE, if_neg hne, mul_zero]
    · intro h; exact absurd (Finset.mem_univ n) h
  rw [hspread, hucat]
  unfold low
  congr 2
  exact Finset.sum_congr rfl fun d _ => by rw [hvr]

end Cert.Bridge.Mixture

end
-- ==== Proof.Reference.lean ====
import proofs.«100150_j55645596287642_2_alg».proof.Proof.Gen.ReferenceIdeal.Read
import proofs.«100150_j55645596287642_2_alg».proof.Proof.Mixture

/-! # The reference computes the mixture

Read one operation at a time, the reference's gate result at `(b, n)` is `pre b n · [pre b n > 0]` with
`pre b n = (∑ k, x[b,k] · enc[n,k]) − bias[n]` (its transposed encoder read back at `[n,k]`), and its output at `(b, e)`
is zero plus the sum over the transforms `n` of `(∑ r, (∑ d, x[b,d] · V[n,r,d]) · U[n,e,r]) · gate b n`: the first product
keeps `(b, n, r)`, the transposition moves `n` in front, the second product is taken transform by transform, and the
gate, transposed and spread along the model axis, multiplies entry `(n, b, e)` by `gate b n`. No law of arithmetic is
used beyond `0 + s = s`. -/

noncomputable section

namespace Cert.Bridge.Reference

open Cert.ReferenceIdeal Cert.ReferenceIdeal.Read Idealize.ShloMosaic Idealize.ShloMosaic.ValueIdx Idealize.ShloMosaic.TcCoe
open Cert.Bridge.Mixture

variable (x0 : (⟨S2048x2048, .f32⟩ : BufTy).Contents (Elt Ideal)) (x1 : (⟨S64x32x2048, .f32⟩ : BufTy).Contents (Elt Ideal))
  (x2 : (⟨S64x2048x32, .f32⟩ : BufTy).Contents (Elt Ideal)) (x3 : (⟨S64x2048, .f32⟩ : BufTy).Contents (Elt Ideal))
  (x4 : (⟨S64, .f32⟩ : BufTy).Contents (Elt Ideal))

/-- The reference's gate at `(b, n)`. -/
theorem gate_at (b : Fin 2048) (n : Fin 64) : val_main_v8 (F := Ideal) x0 x3 x4 (ix2 b n) = gate x0 x3 x4 b n := by
  have e1 : ∀ k : Fin 2048, lidx_main_v1 (ix2 b n) k = ix2 b k := fun k =>
    funext fun a => Fin.ext (by match a with | ⟨0, _⟩ => rfl | ⟨1, _⟩ => rfl)
  have e2 : ∀ k : Fin 2048, idx_main_v0 (ridx_main_v1 (ix2 b n) k) = ix2 n k := fun k =>
    funext fun a => Fin.ext (by match a with | ⟨0, _⟩ => rfl | ⟨1, _⟩ => rfl)
  have e3 : idx_main_v2 (idx_main_v3 (ix2 b n)) = ix1 n :=
    funext fun a => Fin.ext (by match a with | ⟨0, _⟩ => rfl)
  rw [val_main_v8_apply, val_main_v7_apply, val_main_v6_apply, val_main_v5_apply, val_main_cst_apply, val_main_v4_apply,
    val_main_v3_apply, val_main_v2_apply, val_main_v1_apply]
  simp only [val_main_v0_apply, e1, e2, e3]
  rfl

/-- The reference's second result is the gate array. -/
theorem gate_eq : val_main_v8 (F := Ideal) x0 x3 x4 = gateArr x0 x3 x4 := by
  funext i
  obtain ⟨b, n, rfl⟩ : ∃ (b : Fin 2048) (n : Fin 64), i = ix2 b n := ⟨i 0, i 1, eq_ix2 i⟩
  exact gate_at x0 x3 x4 b n

/-- The reference's first result is the mixture array. -/
theorem mix_eq : val_main_v16 (F := Ideal) x0 x1 x2 x3 x4 = mixArr x0 x1 x2 x3 x4 := by
  funext i
  obtain ⟨b, e, rfl⟩ : ∃ (b : Fin 2048) (e : Fin 2048), i = ix2 b e := ⟨i 0, i 1, eq_ix2 i⟩
  have e1 : ∀ (n : Fin 64) (r : Fin 32) (d : Fin 2048),
      lidx_main_v9 (idx_main_v10 (lidx_main_v11 (idx_main_v16 (ix2 b e) n) r)) d = ix2 b d := fun n r d =>
    funext fun a => Fin.ext (by match a with | ⟨0, _⟩ => rfl | ⟨1, _⟩ => rfl)
  have e2 : ∀ (n : Fin 64) (r : Fin 32) (d : Fin 2048),
      ridx_main_v9 (idx_main_v10 (lidx_main_v11 (idx_main_v16 (ix2 b e) n) r)) d = ix3 n r d := fun n r d =>
    funext fun a => Fin.ext (by match a with | ⟨0, _⟩ => rfl | ⟨1, _⟩ => rfl | ⟨2, _⟩ => rfl)
  have e3 : ∀ (n : Fin 64) (r : Fin 32), ridx_main_v11 (idx_main_v16 (ix2 b e) n) r = ix3 n e r := fun n r =>
    funext fun a => Fin.ext (by match a with | ⟨0, _⟩ => rfl | ⟨1, _⟩ => rfl | ⟨2, _⟩ => rfl)
  have e4 : ∀ n : Fin 64, idx_main_v12 (idx_main_v13 (idx_main_v14 (idx_main_v16 (ix2 b e) n))) = ix2 b n := fun n =>
    funext fun a => Fin.ext (by match a with | ⟨0, _⟩ => rfl | ⟨1, _⟩ => rfl)
  rw [val_main_v16_apply, val_main_cst_0_apply]
  simp only [val_main_v15_apply, val_main_v14_apply, val_main_v13_apply, val_main_v12_apply, val_main_v11_apply,
    val_main_v10_apply, val_main_v9_apply, e1, e2, e3, e4, gate_at]
  rw [Ideal.ofBits_def, Ideal.ofBits_zero_f32, zero_add]
  rfl

end Cert.Bridge.Reference

end
-- ==== Proof.FiniteArgs.lean ====
/-
  Under the finiteness precondition every entry of every argument array is a real number.

  The precondition is the conjunction, over the five argument arrays, of "every entry x satisfies |x| < +∞",
  each conjunct being a reduction by `and` over all axes of the elementwise comparison, started from 1.
  At the ideal reading a float is an extended real, |x| is max x (-x), and the comparison is the strict
  order of the extended reals. An extended real x with max x (-x) < ⊤ is neither ⊤ (then max x (-x) = ⊤)
  nor ⊥ (then -x = ⊤), so it is the image of a real number.
-/
import proofs.«100150_j55645596287642_2_alg».proof.Pre_finite_inputs
import proofs.«100150_j55645596287642_2_alg».proof.Proof.Gen.Pre_finite_inputs
import Idealize.ShloMosaic.Lib.ReduceAll
import Idealize.ShloMosaic.Lib.ValueIdx
import Idealize.ShloMosaic.PureOps.Ideal

open Idealize.ShloMosaic

namespace Cert.Bridge.FiniteArgs

open Cert.Pre_finite_inputs

/-- The rank-0 shape has exactly one index: an index is a function out of the empty type. -/
instance subsingleton_scalarIdx : Subsingleton S_.Idx := ⟨fun a b => funext fun d => d.elim0⟩

/-- The f32 pattern 0x7F800000 (sign 0, exponent all ones, significand 0) denotes +∞. -/
theorem posInf_eq_top : Ideal.ofBits .f32 0x7F800000#32 = (⊤ : EReal) := by
  simp [Ideal.ofBits, Ideal.ieee]

/-- The element fact: if |x| < +∞ holds as a comparison bit, then x is a real number.
    By cases on the extended real: at ⊥ and at ⊤ the absolute value is ⊤, which is not below ⊤. -/
theorem elem_real (x : EReal)
    (h : Ideal.cmp .olt (max x (-x)) (Ideal.ofBits .f32 0x7F800000#32) = 1#1) : ∃ r : ℝ, x = (r : EReal) := by
  rw [posInf_eq_top] at h
  induction x using EReal.rec with
  | bot => simp [Ideal.cmp] at h
  | coe r => exact ⟨r, rfl⟩
  | top => simp [Ideal.cmp] at h

/-- If the precondition evaluates to 1, every entry of each of the five argument arrays is a real number.
    The result bit is the `and` of five bits, so each is 1; each of those is an `and`-reduction over all
    axes of an array of comparison bits into a single result, so every comparison bit is 1; and a comparison
    bit at index i is the element fact for the entry at i (the right operand is +∞ broadcast to the shape). -/
theorem real_of_fn [Cert.Pre_finite_inputs.Facts] (x0 : FVec Ideal S2048x2048 .f32) (x1 : FVec Ideal S64x32x2048 .f32)
    (x2 : FVec Ideal S64x2048x32 .f32) (x3 : FVec Ideal S64x2048 .f32) (x4 : FVec Ideal S64 .f32)
    (h : Cert.Pre_finite_inputs.fn (F := Ideal) x0 x1 x2 x3 x4 = fun _ => 1#1) :
    (∀ i, ∃ r : ℝ, x0 i = (r : EReal)) ∧ (∀ i, ∃ r : ℝ, x1 i = (r : EReal)) ∧ (∀ i, ∃ r : ℝ, x2 i = (r : EReal)) ∧
    (∀ i, ∃ r : ℝ, x3 i = (r : EReal)) ∧ (∀ i, ∃ r : ℝ, x4 i = (r : EReal)) := by
  have h0 := congrFun h ValueIdx.ix0
  dsimp only [Cert.Pre_finite_inputs.fn, Cert.Pre_finite_inputs.fn_part1] at h0
  obtain ⟨h0123, h4⟩ := IntOp.andi_eq_one.1 h0
  obtain ⟨h012, h3⟩ := IntOp.andi_eq_one.1 h0123
  obtain ⟨h01, h2⟩ := IntOp.andi_eq_one.1 h012
  obtain ⟨h0', h1⟩ := IntOp.andi_eq_one.1 h01
  refine ⟨fun i => ?_, fun i => ?_, fun i => ?_, fun i => ?_, fun i => ?_⟩
  · exact elem_real (x0 i) (Host.reduce_andi_all _ _ _ _ _ h0' i)
  · exact elem_real (x1 i) (Host.reduce_andi_all _ _ _ _ _ h1 i)
  · exact elem_real (x2 i) (Host.reduce_andi_all _ _ _ _ _ h2 i)
  · exact elem_real (x3 i) (Host.reduce_andi_all _ _ _ _ _ h3 i)
  · exact elem_real (x4 i) (Host.reduce_andi_all _ _ _ _ _ h4 i)

end Cert.Bridge.FiniteArgs
-- ==== Proof.Joined.lean ====
import proofs.«100150_j55645596287642_2_alg».proof.Proof.Tiles
import proofs.«100150_j55645596287642_2_alg».proof.Proof.HostSide
import proofs.«100150_j55645596287642_2_alg».proof.Proof.Mixture
import proofs.«100150_j55645596287642_2_alg».proof.Proof.Reference
import proofs.«100150_j55645596287642_2_alg».proof.Proof.FiniteArgs
import proofs.«100150_j55645596287642_2_alg».proof.Defs

/-! # The kernel's run and the reference's run end at the same three arrays

The kernel's row functions are stated over the arrays its windows stage: `x` itself, `V` with its first two axes
merged, `U` transposed and merged likewise, the transposed encoder, the bias as a row, and the 0/1 spreading matrix.
Reading those at coordinates turns the gate row into the mixture's gate (no law of arithmetic is needed) and, on real
entries, the output row into the mixture (`Mixture.stacked_eq_mix`). The third result is computed on the host by
both programs from the same term of `U` and `V`. -/

noncomputable section

namespace Cert.Bridge.Joined

open Idealize.ShloMosaic Idealize.ShloMosaic.ValueIdx Idealize.ShloMosaic.TcCoe Idealize.SL.Sem
open Cert.LibRealEntries Cert.Bridge.Mixture Cert.Bridge.Tiles

section Rows

open Cert.KernelIdeal

variable (X W1 W2 : S2048x2048.Idx → EReal) (W3 : S2048x64.Idx → EReal) (W4 : S1x64.Idx → EReal) (W5 : S64x2048.Idx → EReal)
  (x : S2048x2048.Idx → EReal) (V : S64x32x2048.Idx → EReal) (U : S64x2048x32.Idx → EReal) (enc : S64x2048.Idx → EReal)
  (bias : S64.Idx → EReal)

/-- With the transposed encoder and the bias row read back at the arguments, the gate row is the mixture's gate. -/
theorem gateRow_eq (hX : X = x) (h3 : ∀ (n : Fin 64) (d : Fin 2048), W3 (ix2 d n) = enc (ix2 n d))
    (h4 : ∀ n : Fin 64, W4 (ix2 (0 : Fin 1) n) = bias (ix1 n)) (b : Fin 2048) (q : Fin 64) :
    gateRow X W3 W4 b q = gate x enc bias b q := by
  subst hX
  unfold gateRow preRow gate pre
  simp only [h3, h4]

/-- With the stacked arrays read back at the arguments, and every entry real, the output row is the mixture. -/
theorem outRow_eq (hX : X = x) (h3 : ∀ (n : Fin 64) (d : Fin 2048), W3 (ix2 d n) = enc (ix2 n d))
    (h4 : ∀ n : Fin 64, W4 (ix2 (0 : Fin 1) n) = bias (ix1 n))
    (h1 : ∀ (n : Fin 64) (r : Fin 32) (d : Fin 2048) (h : r.val + 32 * n.val < 2048), W1 (ix2 ⟨r.val + 32 * n.val, h⟩ d) = V (ix3 n r d))
    (h2 : ∀ (n : Fin 64) (r : Fin 32) (e : Fin 2048) (h : r.val + 32 * n.val < 2048), W2 (ix2 ⟨r.val + 32 * n.val, h⟩ e) = U (ix3 n e r))
    (h5 : ∀ (n' n : Fin 64) (r : Fin 32) (h : r.val + 32 * n.val < 2048),
      W5 (ix2 n' ⟨r.val + 32 * n.val, h⟩) = if n' = n then (1 : EReal) else 0)
    (hx : ∀ i, IsReal (x i)) (hV : ∀ i, IsReal (V i)) (hU : ∀ i, IsReal (U i)) (he : ∀ i, IsReal (enc i)) (hb : ∀ i, IsReal (bias i))
    (b e : Fin 2048) :
    outRow X W1 W2 W3 W4 W5 b e = mix x V U enc bias b e := by
  unfold outRow
  simp only [gateRow_eq X W3 W4 x enc bias hX h3 h4]
  subst hX
  exact stacked_eq_mix hx hV hU he hb W1 W2 W5 h1 h2 h5 b e

end Rows

section Kernel

open Cert.KernelIdeal Cert.KernelIdeal.Gen Cert.KernelIdeal.Value Cert.Bridge.HostSide

variable (m : (ℓ : Loc nD τ sig) → Buf (Elt Ideal) ℓ) (ρ : Dev nD → PrngReg)

/-- Under the precondition the kernel's run ends with the mixture, the gate and the norm term in its three results. -/
theorem kernel_run [Cert.Pre_finite_inputs.Facts] (hpre : Cert.Pre_KernelIdeal m) :
    θ_run defs (onTc (τ := τ) (main (F := Ideal))) ⟨m, fun _ => 0, ρ⟩ fun r => ∀ c : Dev nD,
      r.2.mem ((c : Thread nD τ).loc main_v0_0)
        = mixArr (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_v0_1)
        = gateArr (m ((c : Thread nD τ).loc main_arg0)) (m ((c : Thread nD τ).loc main_arg3)) (m ((c : Thread nD τ).loc main_arg4))
      ∧ r.2.mem ((c : Thread nD τ).loc main_v0_2)
        = frobTerm (m ((c : Thread nD τ).loc main_arg2)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run defs _ _).mono (fun r h c => ?_) (run_main m ρ)
  obtain ⟨hx, hV, hU, he, hb⟩ := Cert.Bridge.FiniteArgs.real_of_fn _ _ _ _ _ (hpre c)
  refine ⟨(post6 m r h c).trans ((final6 m c).trans ?_), (post7 m r h c).trans ((final7 m c).trans ?_),
    ((h c).2 main_v0_2 (Pipeline.mem_restRefs_of main_v0_2 (by decide) (by decide))).trans (frob_term m c),
    kept_main_arg0 m r h c, kept_main_arg1 m r h c, kept_main_arg2 m r h c, kept_main_arg3 m r h c, kept_main_arg4 m r h c⟩
  · funext i
    exact outRow_eq _ _ _ _ _ _ _ _ _ _ _ (V_main_arg0 m c) (encT_apply m c) (bias_apply m c) (vr_apply m c) (ucat_apply m c)
      (expand_apply m c) hx hV hU he hb (i 0) (i 1)
  · funext i
    exact gateRow_eq _ _ _ _ _ _ (V_main_arg0 m c) (encT_apply m c) (bias_apply m c) (i 0) (i 1)

end Kernel

end Cert.Bridge.Joined

end
-- ==== Proof.lean ====
/- The gated low-rank mixture: a Pallas kernel against its jnp reference, equal on the extended reals for finite inputs.

   Both programs compute, from `x` [2048, 2048], `V` [64, 32, 2048], `U` [64, 2048, 32], `encoder` [64, 2048] and
   `bias` [64]: the gate `g[b,n] = a · [a > 0]` with `a = (∑ k, x[b,k] · encoder[n,k]) − bias[n]`; the mixture
   `out[b,e] = ∑ n, (∑ r, (∑ d, x[b,d] · V[n,r,d]) · U[n,e,r]) · g[b,n]`; and the products of the Frobenius norms of
   `U[n]` and `V[n]` divided by 256. The reference computes the mixture in that arrangement (Proof/Reference.lean). The
   kernel stacks the 64 transforms of rank 32 into 2048 positions, spreads the gate over them by a product with a 0/1
   matrix and takes ONE sum over the positions, tile by tile of 256 batch rows (Proof/Payload.lean the stored entries,
   Proof/Tiles.lean from tiles to arrays, Proof/HostSide.lean the stacked arrays read at coordinates). The two
   arrangements agree where every entry is a real number (Proof/Mixture.lean: the gate, a real factor, comes out of the
   sum over the rank), which the precondition gives (Proof/FiniteArgs.lean); the gate itself and the norms need no law
   at all — the norms are one and the same term of `U` and `V` in both programs. Proof/Joined.lean puts the kernel's
   run at these three arrays; the reference's run is read by its generated modules. The idealization rewrote nothing,
   so the kernel's idealized text is its own text read at the exact instance. -/
import proofs.«100150_j55645596287642_2_alg».proof.Defs
import proofs.«100150_j55645596287642_2_alg».proof.Proof.Gen.Kernel
import proofs.«100150_j55645596287642_2_alg».proof.Proof.Gen.Kernel.Skeleton
import proofs.«100150_j55645596287642_2_alg».proof.Proof.Gen.Kernel.Launch
import proofs.«100150_j55645596287642_2_alg».proof.Proof.Gen.Kernel.Points
import proofs.«100150_j55645596287642_2_alg».proof.Proof.Gen.Kernel.Frame
import proofs.«100150_j55645596287642_2_alg».proof.Proof.Gen.KernelIdeal
import proofs.«100150_j55645596287642_2_alg».proof.Proof.Gen.KernelIdeal.Skeleton
import proofs.«100150_j55645596287642_2_alg».proof.Proof.Gen.KernelIdeal.Launch
import proofs.«100150_j55645596287642_2_alg».proof.Proof.Gen.KernelIdeal.Points
import proofs.«100150_j55645596287642_2_alg».proof.Proof.Gen.KernelIdeal.Frame
import proofs.«100150_j55645596287642_2_alg».proof.Proof.Gen.ReferenceIdeal
import proofs.«100150_j55645596287642_2_alg».proof.Proof.Gen.Pre_finite_inputs
import proofs.«100150_j55645596287642_2_alg».proof.Proof.Gen.KernelIdeal.Value
import proofs.«100150_j55645596287642_2_alg».proof.Proof.Gen.ReferenceIdeal.Run
import proofs.«100150_j55645596287642_2_alg».proof.Proof.Gen.ReferenceIdeal.Read
import proofs.«100150_j55645596287642_2_alg».proof.Proof.Joined
import Idealize.ShloMosaic.Adequacy
import Idealize.ShloMosaic.Init

noncomputable section

namespace Cert.Proof

open Idealize.ShloMosaic Idealize.SL.Sem

/-- The word-level kernel runs and leaves its arguments as they were. -/
theorem frame_p : Cert.frame_Kernel := fun m ρ _ => Cert.Kernel.Gen.frame m ρ

/-- So does the kernel read at the exact instance. -/
theorem frame_pi : Cert.frame_KernelIdeal := fun m ρ _ => Cert.KernelIdeal.Gen.frame m ρ

/-- The reference's run, with its results dropped, is its frame. -/
theorem frame_ri : Cert.frame_ReferenceIdeal := fun m ρ _ =>
  (θ_run Cert.ReferenceIdeal.defs _ _).mono (fun _ h c => (h c).2.2.2) (Cert.ReferenceIdeal.Value.run (F := Ideal) m ρ)

/-- The idealization rewrote nothing. -/
theorem preserves : Cert.preserves_Kernel_KernelIdeal := trivial

/-- From memories that agree on the arguments, both runs end with the mixture, the gate and the norm term. -/
theorem algebraic : Cert.algebraic_KernelIdeal_ReferenceIdeal := by
  intro m ρ m' ρ' hpre hagree
  refine ⟨_, _, _, Cert.Bridge.Joined.kernel_run m ρ hpre, ?_⟩
  refine (θ_run Cert.ReferenceIdeal.defs _ _).mono (fun _ h c => ⟨?_, ?_, ?_, (h c).2.2.2⟩)
    (Cert.ReferenceIdeal.Value.run (F := Ideal) m' ρ')
  · rw [(h c).1, Cert.ReferenceIdeal.Read.val_main_v16_eq, Cert.Bridge.Reference.mix_eq, (hagree c).1, (hagree c).2.1,
      (hagree c).2.2.1, (hagree c).2.2.2.1, (hagree c).2.2.2.2]
  · rw [(h c).2.1, Cert.ReferenceIdeal.Read.val_main_v8_eq, Cert.Bridge.Reference.gate_eq, (hagree c).1, (hagree c).2.2.2.1,
      (hagree c).2.2.2.2]
  · rw [(h c).2.2.1, (hagree c).2.1, (hagree c).2.2.1]
    rfl

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
